-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x6 : Shape := ⟨2, ![4000000, 6]⟩
abbrev S_ : Shape := ⟨0, ![]⟩

class Facts : Prop where
  bcast_S_S4000000x6 : S_.BroadcastsInDim S4000000x6 (![] : Fin 0 → Fin S4000000x6.rank)
  reducesTo_S4000000x6_S_d0_1 : S4000000x6.ReducesTo [0, 1] S_
  h_S_ : 0 < S_.numel

variable [Facts]

def fn {F : FTy → Type} [FloatOps F] (main_arg0 : FVec F S4000000x6 .f32) : IVec S_ 1 :=
  let main_v0 : FVec F S4000000x6 .f32 := Host.absf main_arg0
  let main_cst : FVec F S_ .f32 := constant S_ .f32 0x7F800000#32
  let main_v1 : FVec F S4000000x6 .f32 := broadcastInDim S4000000x6 ![] bcast_S_S4000000x6 main_cst
  let main_v2 : IVec S4000000x6 1 := cmpf .olt main_v0 main_v1
  let main_c : IVec S_ 1 := constantI S_ 1 1#1
  let main_v3 : IVec S_ 1 := (fun x v => Host.reduce IntOp.andi x v reducesTo_S4000000x6_S_d0_1 h_S_) main_v2 main_c
  main_v3
-- ==== Kernel.lean ====
abbrev S4000000x6 : Shape := ⟨2, ![4000000, 6]⟩
abbrev S4000000x16 : Shape := ⟨2, ![4000000, 16]⟩
abbrev S16000x6 : Shape := ⟨2, ![16000, 6]⟩
abbrev S16000x16 : Shape := ⟨2, ![16000, 16]⟩
abbrev S6x16000 : Shape := ⟨2, ![6, 16000]⟩
abbrev S1x16000 : Shape := ⟨2, ![1, 16000]⟩
abbrev S16x16000 : Shape := ⟨2, ![16, 16000]⟩
abbrev S4000000x4x4 : Shape := ⟨3, ![4000000, 4, 4]⟩

abbrev nBuf : Space → Nat
  | .hbm => 3
  | .vmem => 4
  | .smem => 0
  | _ => 0

abbrev bufTy : (tb : Table) → Fin (tcTables nBuf tb) → BufTy
  | .hbm, ⟨0, _⟩ => ⟨S4000000x6, .f32⟩
  | .hbm, ⟨1, _⟩ => ⟨S4000000x16, .f32⟩
  | .hbm, ⟨2, _⟩ => ⟨S4000000x4x4, .f32⟩
  | .local _ .vmem, ⟨0, _⟩ => ⟨S16000x6, .f32⟩
  | .local _ .vmem, ⟨1, _⟩ => ⟨S16000x6, .f32⟩
  | .local _ .vmem, ⟨2, _⟩ => ⟨S16000x16, .f32⟩
  | .local _ .vmem, ⟨3, _⟩ => ⟨S16000x16, .f32⟩
  | _, _ => ⟨S4000000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16000x6_S16000x6_0_0 : ∀ a, (![0, 0] : Fin 2 → Nat) a + S16000x6.size a ≤ S16000x6.size a
  h_S16000x6 : 0 < S16000x6.numel
  transposes_S16000x6_p1_0_S6x16000 : S16000x6.Transposes [1, 0] S6x16000
  slices_S6x16000_o0_0_S1x16000 : S6x16000.Slices ![0, 0] S1x16000
  slices_S6x16000_o1_0_S1x16000 : S6x16000.Slices ![1, 0] S1x16000
  slices_S6x16000_o2_0_S1x16000 : S6x16000.Slices ![2, 0] S1x16000
  slices_S6x16000_o3_0_S1x16000 : S6x16000.Slices ![3, 0] S1x16000
  slices_S6x16000_o4_0_S1x16000 : S6x16000.Slices ![4, 0] S1x16000
  slices_S6x16000_o5_0_S1x16000 : S6x16000.Slices ![5, 0] S1x16000
  concatenates_S1x16000_S1x16000_S1x16000_S1x16000_S1x16000_S1x16000_S1x16000_S1x16000_S1x16000_S1x16000_S1x16000_S1x16000_S1x16000_S1x16000_S1x16000_S1x16000_S16x16000_d0 : Shape.Concatenates [S1x16000, S1x16000, S1x16000, S1x16000, S1x16000, S1x16000, S1x16000, S1x16000, S1x16000, S1x16000, S1x16000, S1x16000, S1x16000, S1x16000, S1x16000, S1x16000] S16x16000 0
  transposes_S16x16000_p1_0_S16000x16 : S16x16000.Transposes [1, 0] S16000x16
  inb_S16000x16_S16000x16_0_0 : ∀ a, (![0, 0] : Fin 2 → Nat) a + S16000x16.size a ≤ S16000x16.size a
  h_S16000x16 : 0 < S16000x16.numel
  shapeCasts_S4000000x16_S4000000x4x4 : S4000000x16.ShapeCasts S4000000x4x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x6.size a ≤ S4000000x6.size a
  hwx0_0 : ∀ i : grid0.Coords, EltTy.bits .f32 = 32 ∨ (Rect.block (s := S4000000x6) S16000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x16.size a ≤ S4000000x16.size a
  hwx0_1 : ∀ i : grid0.Coords, EltTy.bits .f32 = 32 ∨ (Rect.block (s := S4000000x16) S16000x16.size (cc0_transform_1 i) (hinb0_1 i)).WholeWords (EltTy.packing .f32)

variable [Facts₀]

abbrev win0_0 : Pipeline.Window sig grid0 :=
  Pipeline.Window.ofSpec (Memref.whole main_arg0) S16000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16000x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x6 : Shape := ⟨2, ![4000000, 6]⟩
abbrev S1x1x4 : Shape := ⟨3, ![1, 1, 4]⟩
abbrev S4000000x3 : Shape := ⟨2, ![4000000, 3]⟩
abbrev S4000000x1 : Shape := ⟨2, ![4000000, 1]⟩
abbrev S4000000 : Shape := ⟨1, ![4000000]⟩
abbrev S_ : Shape := ⟨0, ![]⟩
abbrev S4000000x1x3 : Shape := ⟨3, ![4000000, 1, 3]⟩
abbrev S4000000x3x3 : Shape := ⟨3, ![4000000, 3, 3]⟩
abbrev S3x3 : Shape := ⟨2, ![3, 3]⟩
abbrev S4000000x1x1 : Shape := ⟨3, ![4000000, 1, 1]⟩
abbrev S1x3x3 : Shape := ⟨3, ![1, 3, 3]⟩
abbrev S4000000x3x1 : Shape := ⟨3, ![4000000, 3, 1]⟩
abbrev S4000000x3x4 : Shape := ⟨3, ![4000000, 3, 4]⟩
abbrev S4000000x1x4 : Shape := ⟨3, ![4000000, 1, 4]⟩
abbrev S4000000x4x4 : Shape := ⟨3, ![4000000, 4, 4]⟩

abbrev nBuf : Space → Nat
  | .hbm => 85
  | .vmem => 0
  | .smem => 0
  | _ => 0

abbrev bufTy : (tb : Table) → Fin (tcTables nBuf tb) → BufTy
  | .hbm, ⟨0, _⟩ => ⟨S4000000x6, .f32⟩
  | .hbm, ⟨1, _⟩ => ⟨S1x1x4, .f32⟩
  | .hbm, ⟨2, _⟩ => ⟨S4000000x3, .f32⟩
  | .hbm, ⟨3, _⟩ => ⟨S4000000x3, .f32⟩
  | .hbm, ⟨4, _⟩ => ⟨S4000000x1, .f32⟩
  | .hbm, ⟨5, _⟩ => ⟨S4000000, .f32⟩
  | .hbm, ⟨6, _⟩ => ⟨S4000000x1, .f32⟩
  | .hbm, ⟨7, _⟩ => ⟨S4000000, .f32⟩
  | .hbm, ⟨8, _⟩ => ⟨S4000000x1, .f32⟩
  | .hbm, ⟨9, _⟩ => ⟨S4000000, .f32⟩
  | .hbm, ⟨10, _⟩ => ⟨S_, .f32⟩
  | .hbm, ⟨11, _⟩ => ⟨S4000000, .f32⟩
  | .hbm, ⟨12, _⟩ => ⟨S4000000, .f32⟩
  | .hbm, ⟨13, _⟩ => ⟨S4000000x1, .f32⟩
  | .hbm, ⟨14, _⟩ => ⟨S4000000x1, .f32⟩
  | .hbm, ⟨15, _⟩ => ⟨S4000000x1, .f32⟩
  | .hbm, ⟨16, _⟩ => ⟨S4000000x3, .f32⟩
  | .hbm, ⟨17, _⟩ => ⟨S4000000, .f32⟩
  | .hbm, ⟨18, _⟩ => ⟨S4000000x1, .f32⟩
  | .hbm, ⟨19, _⟩ => ⟨S4000000x1, .f32⟩
  | .hbm, ⟨20, _⟩ => ⟨S4000000x1, .f32⟩
  | .hbm, ⟨21, _⟩ => ⟨S4000000x3, .f32⟩
  | .hbm, ⟨22, _⟩ => ⟨S4000000, .f32⟩
  | .hbm, ⟨23, _⟩ => ⟨S4000000x1, .f32⟩
  | .hbm, ⟨24, _⟩ => ⟨S4000000x1, .f32⟩
  | .hbm, ⟨25, _⟩ => ⟨S4000000x1, .f32⟩
  | .hbm, ⟨26, _⟩ => ⟨S4000000x3, .f32⟩
  | .hbm, ⟨27, _⟩ => ⟨S4000000x1x3, .f32⟩
  | .hbm, ⟨28, _⟩ => ⟨S4000000x1x3, .f32⟩
  | .hbm, ⟨29, _⟩ => ⟨S4000000x1x3, .f32⟩
  | .hbm, ⟨30, _⟩ => ⟨S4000000x3x3, .f32⟩
  | .hbm, ⟨31, _⟩ => ⟨S4000000x3, .f32⟩
  | .hbm, ⟨32, _⟩ => ⟨S_, .f32⟩
  | .hbm, ⟨33, _⟩ => ⟨S4000000, .f32⟩
  | .hbm, ⟨34, _⟩ => ⟨S_, .f32⟩
  | .hbm, ⟨35, _⟩ => ⟨S4000000, .f32⟩
  | .hbm, ⟨36, _⟩ => ⟨S4000000, .i1⟩
  | .hbm, ⟨37, _⟩ => ⟨S_, .f32⟩
  | .hbm, ⟨38, _⟩ => ⟨S_, .f32⟩
  | .hbm, ⟨39, _⟩ => ⟨S4000000, .f32⟩
  | .hbm, ⟨40, _⟩ => ⟨S4000000, .f32⟩
  | .hbm, ⟨41, _⟩ => ⟨S4000000, .f32⟩
  | .hbm, ⟨42, _⟩ => ⟨S_, .f32⟩
  | .hbm, ⟨43, _⟩ => ⟨S4000000, .f32⟩
  | .hbm, ⟨44, _⟩ => ⟨S4000000, .f32⟩
  | .hbm, ⟨45, _⟩ => ⟨S_, .f32⟩
  | .hbm, ⟨46, _⟩ => ⟨S4000000, .f32⟩
  | .hbm, ⟨47, _⟩ => ⟨S4000000, .f32⟩
  | .hbm, ⟨48, _⟩ => ⟨S4000000, .f32⟩
  | .hbm, ⟨49, _⟩ => ⟨S4000000, .f32⟩
  | .hbm, ⟨50, _⟩ => ⟨S4000000, .f32⟩
  | .hbm, ⟨51, _⟩ => ⟨S_, .f32⟩
  | .hbm, ⟨52, _⟩ => ⟨S4000000, .f32⟩
  | .hbm, ⟨53, _⟩ => ⟨S4000000, .f32⟩
  | .hbm, ⟨54, _⟩ => ⟨S_, .f32⟩
  | .hbm, ⟨55, _⟩ => ⟨S4000000, .f32⟩
  | .hbm, ⟨56, _⟩ => ⟨S4000000, .f32⟩
  | .hbm, ⟨57, _⟩ => ⟨S4000000, .f32⟩
  | .hbm, ⟨58, _⟩ => ⟨S_, .f32⟩
  | .hbm, ⟨59, _⟩ => ⟨S4000000, .f32⟩
  | .hbm, ⟨60, _⟩ => ⟨S4000000, .f32⟩
  | .hbm, ⟨61, _⟩ => ⟨S4000000, .f32⟩
  | .hbm, ⟨62, _⟩ => ⟨S4000000, .f32⟩
  | .hbm, ⟨63, _⟩ => ⟨S4000000x3x3, .f32⟩
  | .hbm, ⟨64, _⟩ => ⟨S3x3, .i32⟩
  | .hbm, ⟨65, _⟩ => ⟨S3x3, .i32⟩
  | .hbm, ⟨66, _⟩ => ⟨S_, .i32⟩
  | .hbm, ⟨67, _⟩ => ⟨S3x3, .i32⟩
  | .hbm, ⟨68, _⟩ => ⟨S3x3, .i32⟩
  | .hbm, ⟨69, _⟩ => ⟨S3x3, .i1⟩
  | .hbm, ⟨70, _⟩ => ⟨S3x3, .f32⟩
  | .hbm, ⟨71, _⟩ => ⟨S4000000x1x1, .f32⟩
  | .hbm, ⟨72, _⟩ => ⟨S4000000x3x3, .f32⟩
  | .hbm, ⟨73, _⟩ => ⟨S4000000x3x3, .f32⟩
  | .hbm, ⟨74, _⟩ => ⟨S1x3x3, .f32⟩
  | .hbm, ⟨75, _⟩ => ⟨S4000000x3x3, .f32⟩
  | .hbm, ⟨76, _⟩ => ⟨S4000000x3x3, .f32⟩
  | .hbm, ⟨77, _⟩ => ⟨S4000000x1x1, .f32⟩
  | .hbm, ⟨78, _⟩ => ⟨S4000000x3x3, .f32⟩
  | .hbm, ⟨79, _⟩ => ⟨S4000000x3x3, .f32⟩
  | .hbm, ⟨80, _⟩ => ⟨S4000000x3x3, .f32⟩
  | .hbm, ⟨81, _⟩ => ⟨S4000000x3x1, .f32⟩
  | .hbm, ⟨82, _⟩ => ⟨S4000000x3x4, .f32⟩
  | .hbm, ⟨83, _⟩ => ⟨S4000000x1x4, .f32⟩
  | .hbm, ⟨84, _⟩ => ⟨S4000000x4x4, .f32⟩
  | _, _ => ⟨S4000000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst_1 : Ref sig .tc := ⟨.hbm, 32, rfl⟩
abbrev main_v29 : Ref sig .tc := ⟨.hbm, 33, rfl⟩
abbrev main_cst_2 : Ref sig .tc := ⟨.hbm, 34, rfl⟩
abbrev main_v30 : Ref sig .tc := ⟨.hbm, 35, rfl⟩
abbrev main_v31 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩

abbrev nD : Nat := 1
abbrev τ : Topo := Topo.v7x

variable {F : FTy → Type} [FloatOps F]

class Facts₀ : Prop where
  slices_S4000000x6_S4000000x3_0_0 : S4000000x6.Slices ![0, 0] S4000000x3
  slices_S4000000x6_S4000000x3_0_3 : S4000000x6.Slices ![0, 3] S4000000x3
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x1_S4000000x3_d1 : Shape.Concatenates [S4000000x1, S4000000x1, S4000000x1] S4000000x3 1
  bcast_S4000000x3_S4000000x1x3_0_2 : S4000000x3.BroadcastsInDim S4000000x1x3 (![0, 2] : Fin 2 → Fin S4000000x1x3.rank)
  concatenates_S4000000x1x3_S4000000x1x3_S4000000x1x3_S4000000x3x3_d1 : Shape.Concatenates [S4000000x1x3, S4000000x1x3, S4000000x1x3] S4000000x3x3 1
  reducesTo_S4000000x3_S4000000_d1 : S4000000x3.ReducesTo [1] S4000000
  h_S_ : 0 < S_.numel
  bcast_S_S3x3 : S_.BroadcastsInDim S3x3 (![] : Fin 0 → Fin S3x3.rank)
  bcast_S4000000_S4000000x1x1_0 : S4000000.BroadcastsInDim S4000000x1x1 (![0] : Fin 1 → Fin S4000000x1x1.rank)
  bcast_S4000000x1x1_S4000000x3x3_0_1_2 : S4000000x1x1.BroadcastsInDim S4000000x3x3 (![0, 1, 2] : Fin 3 → Fin S4000000x3x3.rank)
  bcast_S3x3_S1x3x3_1_2 : S3x3.BroadcastsInDim S1x3x3 (![1, 2] : Fin 2 → Fin S1x3x3.rank)
  bcast_S1x3x3_S4000000x3x3_0_1_2 : S1x3x3.BroadcastsInDim S4000000x3x3 (![0, 1, 2] : Fin 3 → Fin S4000000x3x3.rank)
  bcast_S4000000x3_S4000000x3x1_0_1 : S4000000x3.BroadcastsInDim S4000000x3x1 (![0, 1] : Fin 2 → Fin S4000000x3x1.rank)
  concatenates_S4000000x3x3_S4000000x3x1_S4000000x3x4_d2 : Shape.Concatenates [S4000000x3x3, S4000000x3x1] S4000000x3x4 2
  bcast_S1x1x4_S4000000x1x4_0_1_2 : S1x1x4.BroadcastsInDim S4000000x1x4 (![0, 1, 2] : Fin 3 → Fin S4000000x1x4.rank)
  concatenates_S4000000x3x4_S4000000x1x4_S4000000x4x4_d1 : Shape.Concatenates [S4000000x3x4, S4000000x1x4] S4000000x4x4 1
  dot_S4000000x3x3_S4000000x3x3_S4000000x3x3_2_1_1_2_0_0_wf : DotDims.WF S4000000x3x3 S4000000x3x3 S4000000x3x3 [2] [1] [1] [2] [0] [0]

variable [Facts₀]

def dot_S4000000x3x3_S4000000x3x3_S4000000x3x3_2_1_1_2_0_0 : DotDims S4000000x3x3 S4000000x3x3 S4000000x3x3 where
  lhsContracting := [2]
  rhsContracting := [1]
  lhsNonContracting := [1]
  rhsNonContracting := [2]
  lhsBatch := [0]
  rhsBatch := [0]
  wf := dot_S4000000x3x3_S4000000x3x3_S4000000x3x3_2_1_1_2_0_0_wf

class Facts : Prop extends Facts₀ where

variable [Facts]
-- ==== Proof.Rodrigues.lean ====
/-
  The mathematics both programs compute, per batch row, on the extended reals.

  A row of the input is six numbers: a rotation vector w = (wx, wy, wz) and a translation (tx, ty, tz).
  With θ² = |w|², the row's 4×4 result is the homogeneous matrix [[R, t], [0 0 0 1]] where R is Rodrigues'
  rotation  R = I + A·K + B·K²,  K the skew-symmetric matrix of w,  A = sin θ / θ,  B = (1 − cos θ) / θ²,
  and below the threshold θ² < ε both coefficients are replaced by their second-order Taylor polynomials
  A = 1 − θ²/6, B = 1/2 − θ²/24.

  One program expands R entry by entry (K² = w wᵀ − θ² I, so the diagonal is (1 − B θ²) + B wᵢ² and the
  off-diagonal B wᵢ wⱼ ± A wₖ) and divides 1 − cos θ by the guarded θ² (1 below the threshold);
  the other forms K, multiplies K by itself as a 3×3 product, and divides by θ² itself. `kerEntry` and
  `refEntry` are these two spellings; they are the same number whenever the six inputs are finite
  (the diagonal needs cancellation, which fails at an infinity).
-/
import Idealize.ShloMosaic.PureOps.Ideal
import Idealize.ShloMosaic.Lib.ValueIdx

noncomputable section

namespace Cert.So3

open Idealize.ShloMosaic

/-! ## The six float literals, as the extended reals their words denote -/

/-- the threshold ε (the float nearest 1e-8) -/
abbrev eps : EReal := Ideal.ofBits .f32 0x322BCC77#32
abbrev one : EReal := Ideal.ofBits .f32 0x3F800000#32
abbrev six : EReal := Ideal.ofBits .f32 0x40C00000#32
abbrev c24 : EReal := Ideal.ofBits .f32 0x41C00000#32
abbrev half : EReal := Ideal.ofBits .f32 0x3F000000#32
abbrev zero : EReal := Ideal.ofBits .f32 0x00000000#32

/-! ## The coefficients, as functions of θ² -/

/-- θ² < ε, as the one-bit mask both programs select by -/
def small (t2 : EReal) : BitVec 1 := Ideal.cmp .olt t2 eps

/-- the guarded θ²: 1 below the threshold -/
def safe (t2 : EReal) : EReal := Scalar.select (small t2) one t2

/-- θ, the root of the guarded θ² -/
def theta (t2 : EReal) : EReal := Ideal.sqrt (safe t2)

/-- A = sin θ / θ, or 1 − θ²/6 below the threshold -/
def coefA (t2 : EReal) : EReal :=
  Scalar.select (small t2) (one - Ideal.div t2 six) (Ideal.div (Ideal.sin (theta t2)) (theta t2))

/-- B with the quotient taken by the GUARDED θ² -/
def coefBsafe (t2 : EReal) : EReal :=
  Scalar.select (small t2) (half - Ideal.div t2 c24) (Ideal.div (one - Ideal.cos (theta t2)) (safe t2))

/-- B with the quotient taken by θ² itself -/
def coefBraw (t2 : EReal) : EReal :=
  Scalar.select (small t2) (half - Ideal.div t2 c24) (Ideal.div (one - Ideal.cos (theta t2)) t2)

/-! ## The expanded spelling -/

/-- θ² summed left to right -/
def th2K (wx wy wz : EReal) : EReal := wx * wx + wy * wy + wz * wz

/-- Entry q = 4·r + c of the row's 4×4 matrix, R expanded entry by entry. -/
def kerEntry (wx wy wz tx ty tz : EReal) (q : Fin 16) : EReal :=
  let t2 := th2K wx wy wz
  let A := coefA t2
  let B := coefBsafe t2
  let cd := one - B * t2
  (![cd + B * wx * wx, B * (wx * wy) - A * wz, B * (wz * wx) + A * wy, tx,
     B * (wx * wy) + A * wz, cd + B * wy * wy, B * (wy * wz) - A * wx, ty,
     B * (wz * wx) - A * wy, B * (wy * wz) + A * wx, cd + B * wz * wz, tz,
     zero, zero, zero, one]) q

/-! ## The matrix spelling -/

/-- θ² as an initial zero plus the sum of the three squares -/
def th2R (wx wy wz : EReal) : EReal := zero + ∑ k : Fin 3, (![wx, wy, wz] k) * (![wx, wy, wz] k)

/-- K, the skew-symmetric matrix of w -/
def skew (wx wy wz : EReal) (i j : Fin 3) : EReal :=
  (![![zero, -wz, wy], ![wz, zero, -wx], ![-wy, wx, zero]] i) j

/-- the identity matrix's entry: the bit "i = j" read as a number -/
def eye (i j : Fin 3) : EReal := (((if i = j then 1 else 0 : Nat) : ℝ) : EReal)

/-- R = (I + A·K) + B·(K·K), entry (i, j) -/
def refRot (wx wy wz : EReal) (i j : Fin 3) : EReal :=
  let t2 := th2R wx wy wz
  (eye i j + coefA t2 * skew wx wy wz i j) + coefBraw t2 * ∑ k : Fin 3, skew wx wy wz i k * skew wx wy wz k j

/-- the last row, [0, 0, 0, 1] -/
def lastRow (c : Fin 4) : EReal := (![zero, zero, zero, one]) c

/-- Entry (r, c) of the row's 4×4 matrix: R beside t, above the last row. -/
def refEntry (wx wy wz tx ty tz : EReal) (r c : Fin 4) : EReal :=
  if hr : r.val < 3 then
    (if hc : c.val < 3 then refRot wx wy wz ⟨r.val, hr⟩ ⟨c.val, hc⟩ else (![tx, ty, tz]) ⟨r.val, hr⟩)
  else lastRow c

end Cert.So3

end
-- ==== Proof.KerBody.lean ====
/-
  What the body stores, read at an index.

  The body loads a block of 16000 rows by 6 columns, transposes it so that each of the six columns becomes a row
  of 16000 lanes, computes everything lane by lane, stacks sixteen result rows and transposes back. So entry
  (p, q) of the stored block depends on row p of the loaded block only: lane p of the k-th row slice is entry
  (p, k) of the block, every arithmetic step is pointwise in the lane, and stacked row q read at lane p is the
  q-th of the sixteen per-row results. This module reads that off, one operation at a time, and arrives at the
  expanded spelling of the row's 4×4 matrix.
-/
import proofs.«127277_j31421980737562_2_alg».proof.Proof.Gen.KernelIdeal.Skeleton
import proofs.«127277_j31421980737562_2_alg».proof.Proof.Rodrigues
import Idealize.ShloMosaic.Lib.Pipeline.Value
import Idealize.ShloMosaic.Lib.ValueIdx
import Idealize.ShloMosaic.Lib.ValueLayout

noncomputable section

namespace Cert.KernelIdeal.KerValue

open Idealize.ShloMosaic Idealize.ShloMosaic.ValueIdx Cert.KernelIdeal Cert.KernelIdeal.Gen

variable [Cert.KernelIdeal.Facts]

/-! ## The six columns of the block, as rows of lanes -/

/-- Lane p of the first row slice of the transposed block is entry (p, 0) of the block. -/
theorem col0_apply (x0 : Vec Ideal S16000x6 .f32) (p : Fin 16000) :
    k0_pay3 x0 (ix2 (0 : Fin 1) p) = x0 (ix2 p (0 : Fin 6)) := by
  unfold k0_pay3 k0_pay2
  exact (slice2_axis0_apply 0 _ _ (0 : Fin 1) p (0 : Fin 6) rfl).trans (transpose_ix2_apply x0 _ (0 : Fin 6) p)

theorem col1_apply (x0 : Vec Ideal S16000x6 .f32) (p : Fin 16000) :
    k0_pay4 x0 (ix2 (0 : Fin 1) p) = x0 (ix2 p (1 : Fin 6)) := by
  unfold k0_pay4 k0_pay2
  exact (slice2_axis0_apply 1 _ _ (0 : Fin 1) p (1 : Fin 6) rfl).trans (transpose_ix2_apply x0 _ (1 : Fin 6) p)

theorem col2_apply (x0 : Vec Ideal S16000x6 .f32) (p : Fin 16000) :
    k0_pay5 x0 (ix2 (0 : Fin 1) p) = x0 (ix2 p (2 : Fin 6)) := by
  unfold k0_pay5 k0_pay2
  exact (slice2_axis0_apply 2 _ _ (0 : Fin 1) p (2 : Fin 6) rfl).trans (transpose_ix2_apply x0 _ (2 : Fin 6) p)

theorem col3_apply (x0 : Vec Ideal S16000x6 .f32) (p : Fin 16000) :
    k0_pay6 x0 (ix2 (0 : Fin 1) p) = x0 (ix2 p (3 : Fin 6)) := by
  unfold k0_pay6 k0_pay2
  exact (slice2_axis0_apply 3 _ _ (0 : Fin 1) p (3 : Fin 6) rfl).trans (transpose_ix2_apply x0 _ (3 : Fin 6) p)

theorem col4_apply (x0 : Vec Ideal S16000x6 .f32) (p : Fin 16000) :
    k0_pay7 x0 (ix2 (0 : Fin 1) p) = x0 (ix2 p (4 : Fin 6)) := by
  unfold k0_pay7 k0_pay2
  exact (slice2_axis0_apply 4 _ _ (0 : Fin 1) p (4 : Fin 6) rfl).trans (transpose_ix2_apply x0 _ (4 : Fin 6) p)

theorem col5_apply (x0 : Vec Ideal S16000x6 .f32) (p : Fin 16000) :
    k0_pay8 x0 (ix2 (0 : Fin 1) p) = x0 (ix2 p (5 : Fin 6)) := by
  unfold k0_pay8 k0_pay2
  exact (slice2_axis0_apply 5 _ _ (0 : Fin 1) p (5 : Fin 6) rfl).trans (transpose_ix2_apply x0 _ (5 : Fin 6) p)

/-! ## θ², the mask and the coefficients, lane by lane -/

/-- θ² at lane p is the sum of the squares of the row's first three entries, summed left to right. -/
theorem th2_apply (x0 : Vec Ideal S16000x6 .f32) (p : Fin 16000) :
    k0_pay9 x0 (ix2 (0 : Fin 1) p)
      = So3.th2K (x0 (ix2 p (0 : Fin 6))) (x0 (ix2 p (1 : Fin 6))) (x0 (ix2 p (2 : Fin 6))) := by
  unfold k0_pay9 So3.th2K
  simp only [addf_apply, mulf_apply, col0_apply, col1_apply, col2_apply]

/-- The mask at lane p is the comparison of that θ² with the threshold. -/
theorem small_apply (x0 : Vec Ideal S16000x6 .f32) (p : Fin 16000) :
    k0_pay10 x0 (ix2 (0 : Fin 1) p)
      = So3.small (So3.th2K (x0 (ix2 p (0 : Fin 6))) (x0 (ix2 p (1 : Fin 6))) (x0 (ix2 p (2 : Fin 6)))) := by
  unfold k0_pay10
  rw [cmpf_apply, th2_apply]
  rfl

/-- The guarded θ² at lane p. -/
theorem safe_apply (x0 : Vec Ideal S16000x6 .f32) (p : Fin 16000) :
    k0_pay11 x0 (ix2 (0 : Fin 1) p)
      = So3.safe (So3.th2K (x0 (ix2 p (0 : Fin 6))) (x0 (ix2 p (1 : Fin 6))) (x0 (ix2 p (2 : Fin 6)))) := by
  unfold k0_pay11
  rw [select_apply, small_apply, th2_apply]
  rfl

/-- θ at lane p. -/
theorem theta_apply (x0 : Vec Ideal S16000x6 .f32) (p : Fin 16000) :
    k0_pay12 x0 (ix2 (0 : Fin 1) p)
      = So3.theta (So3.th2K (x0 (ix2 p (0 : Fin 6))) (x0 (ix2 p (1 : Fin 6))) (x0 (ix2 p (2 : Fin 6)))) := by
  unfold k0_pay12 So3.theta
  rw [← safe_apply]
  rfl

/-- A at lane p: sin θ / θ, or its Taylor polynomial below the threshold. -/
theorem coefA_apply (x0 : Vec Ideal S16000x6 .f32) (p : Fin 16000) :
    k0_pay13 x0 (ix2 (0 : Fin 1) p) = So3.coefA (So3.th2K (x0 (ix2 p (0 : Fin 6))) (x0 (ix2 p (1 : Fin 6))) (x0 (ix2 p (2 : Fin 6)))) := by
  unfold k0_pay13 So3.coefA
  show Scalar.select (k0_pay10 x0 (ix2 (0 : Fin 1) p)) (_ - Ideal.div (k0_pay9 x0 (ix2 (0 : Fin 1) p)) _)
      (Ideal.div (Ideal.sin (k0_pay12 x0 (ix2 (0 : Fin 1) p))) (k0_pay12 x0 (ix2 (0 : Fin 1) p))) = _
  rw [small_apply, th2_apply, theta_apply]
  rfl

/-- B at lane p, the quotient taken by the guarded θ². -/
theorem coefB_apply (x0 : Vec Ideal S16000x6 .f32) (p : Fin 16000) :
    k0_pay14 x0 (ix2 (0 : Fin 1) p) = So3.coefBsafe (So3.th2K (x0 (ix2 p (0 : Fin 6))) (x0 (ix2 p (1 : Fin 6))) (x0 (ix2 p (2 : Fin 6)))) := by
  unfold k0_pay14 So3.coefBsafe
  show Scalar.select (k0_pay10 x0 (ix2 (0 : Fin 1) p)) (_ - Ideal.div (k0_pay9 x0 (ix2 (0 : Fin 1) p)) _)
      (Ideal.div (_ - Ideal.cos (k0_pay12 x0 (ix2 (0 : Fin 1) p))) (k0_pay11 x0 (ix2 (0 : Fin 1) p))) = _
  rw [small_apply, th2_apply, theta_apply, safe_apply]
  rfl

/-- 1 − B·θ² at lane p, the part the three diagonal entries share. -/
theorem diag_apply (x0 : Vec Ideal S16000x6 .f32) (p : Fin 16000) :
    k0_pay15 x0 (ix2 (0 : Fin 1) p) = So3.one - So3.coefBsafe (So3.th2K (x0 (ix2 p (0 : Fin 6))) (x0 (ix2 p (1 : Fin 6))) (x0 (ix2 p (2 : Fin 6)))) * (So3.th2K (x0 (ix2 p (0 : Fin 6))) (x0 (ix2 p (1 : Fin 6))) (x0 (ix2 p (2 : Fin 6)))) := by
  unfold k0_pay15
  show _ - k0_pay14 x0 (ix2 (0 : Fin 1) p) * k0_pay9 x0 (ix2 (0 : Fin 1) p) = _
  rw [coefB_apply, th2_apply]
  rfl

/-- The diagonal entries at lane p: (1 − B·θ²) + (B·wᵢ)·wᵢ. -/
theorem r00_apply (x0 : Vec Ideal S16000x6 .f32) (p : Fin 16000) :
    k0_pay16 x0 (ix2 (0 : Fin 1) p) = (So3.one - So3.coefBsafe (So3.th2K (x0 (ix2 p (0 : Fin 6))) (x0 (ix2 p (1 : Fin 6))) (x0 (ix2 p (2 : Fin 6)))) * (So3.th2K (x0 (ix2 p (0 : Fin 6))) (x0 (ix2 p (1 : Fin 6))) (x0 (ix2 p (2 : Fin 6))))) + So3.coefBsafe (So3.th2K (x0 (ix2 p (0 : Fin 6))) (x0 (ix2 p (1 : Fin 6))) (x0 (ix2 p (2 : Fin 6)))) * x0 (ix2 p (0 : Fin 6)) * x0 (ix2 p (0 : Fin 6)) := by
  unfold k0_pay16
  show k0_pay15 x0 (ix2 (0 : Fin 1) p) + k0_pay14 x0 (ix2 (0 : Fin 1) p) * k0_pay3 x0 (ix2 (0 : Fin 1) p) * k0_pay3 x0 (ix2 (0 : Fin 1) p) = _
  rw [diag_apply, coefB_apply, col0_apply]

theorem r11_apply (x0 : Vec Ideal S16000x6 .f32) (p : Fin 16000) :
    k0_pay17 x0 (ix2 (0 : Fin 1) p) = (So3.one - So3.coefBsafe (So3.th2K (x0 (ix2 p (0 : Fin 6))) (x0 (ix2 p (1 : Fin 6))) (x0 (ix2 p (2 : Fin 6)))) * (So3.th2K (x0 (ix2 p (0 : Fin 6))) (x0 (ix2 p (1 : Fin 6))) (x0 (ix2 p (2 : Fin 6))))) + So3.coefBsafe (So3.th2K (x0 (ix2 p (0 : Fin 6))) (x0 (ix2 p (1 : Fin 6))) (x0 (ix2 p (2 : Fin 6)))) * x0 (ix2 p (1 : Fin 6)) * x0 (ix2 p (1 : Fin 6)) := by
  unfold k0_pay17
  show k0_pay15 x0 (ix2 (0 : Fin 1) p) + k0_pay14 x0 (ix2 (0 : Fin 1) p) * k0_pay4 x0 (ix2 (0 : Fin 1) p) * k0_pay4 x0 (ix2 (0 : Fin 1) p) = _
  rw [diag_apply, coefB_apply, col1_apply]

theorem r22_apply (x0 : Vec Ideal S16000x6 .f32) (p : Fin 16000) :
    k0_pay18 x0 (ix2 (0 : Fin 1) p) = (So3.one - So3.coefBsafe (So3.th2K (x0 (ix2 p (0 : Fin 6))) (x0 (ix2 p (1 : Fin 6))) (x0 (ix2 p (2 : Fin 6)))) * (So3.th2K (x0 (ix2 p (0 : Fin 6))) (x0 (ix2 p (1 : Fin 6))) (x0 (ix2 p (2 : Fin 6))))) + So3.coefBsafe (So3.th2K (x0 (ix2 p (0 : Fin 6))) (x0 (ix2 p (1 : Fin 6))) (x0 (ix2 p (2 : Fin 6)))) * x0 (ix2 p (2 : Fin 6)) * x0 (ix2 p (2 : Fin 6)) := by
  unfold k0_pay18
  show k0_pay15 x0 (ix2 (0 : Fin 1) p) + k0_pay14 x0 (ix2 (0 : Fin 1) p) * k0_pay5 x0 (ix2 (0 : Fin 1) p) * k0_pay5 x0 (ix2 (0 : Fin 1) p) = _
  rw [diag_apply, coefB_apply, col2_apply]

/-- The three products of two different components, at lane p. -/
theorem wxy_apply (x0 : Vec Ideal S16000x6 .f32) (p : Fin 16000) :
    k0_pay19 x0 (ix2 (0 : Fin 1) p) = x0 (ix2 p (0 : Fin 6)) * x0 (ix2 p (1 : Fin 6)) := by
  unfold k0_pay19
  show k0_pay3 x0 (ix2 (0 : Fin 1) p) * k0_pay4 x0 (ix2 (0 : Fin 1) p) = _
  rw [col0_apply, col1_apply]

theorem wyz_apply (x0 : Vec Ideal S16000x6 .f32) (p : Fin 16000) :
    k0_pay20 x0 (ix2 (0 : Fin 1) p) = x0 (ix2 p (1 : Fin 6)) * x0 (ix2 p (2 : Fin 6)) := by
  unfold k0_pay20
  show k0_pay4 x0 (ix2 (0 : Fin 1) p) * k0_pay5 x0 (ix2 (0 : Fin 1) p) = _
  rw [col1_apply, col2_apply]

theorem wzx_apply (x0 : Vec Ideal S16000x6 .f32) (p : Fin 16000) :
    k0_pay21 x0 (ix2 (0 : Fin 1) p) = x0 (ix2 p (2 : Fin 6)) * x0 (ix2 p (0 : Fin 6)) := by
  unfold k0_pay21
  show k0_pay5 x0 (ix2 (0 : Fin 1) p) * k0_pay3 x0 (ix2 (0 : Fin 1) p) = _
  rw [col2_apply, col0_apply]

/-! ## The sixteen stacked rows -/

/-- Row k of a stack of one-row pieces, read at lane p, is piece k at lane p: the pieces before it take up k rows. -/
theorem stack_apply {α : Type} (xs : List ((s : Shape) × (s.Idx → α))) (h : Shape.Concatenates (xs.map (·.1)) S16x16000 0)
    (k : Nat) (hk16 : k < 16) (hk : k < xs.length) (x₁ : S1x16000.Idx → α) (hxk : xs[k] = ⟨S1x16000, x₁⟩)
    (hpre : (((xs.take k).map (·.1)).map fun s => if h : s.rank = S16x16000.rank then s.size ((0 : Fin S16x16000.rank).cast h.symm) else 0).sum = k)
    (p : Fin 16000) :
    concatenate S16x16000 0 xs h (ix2 (⟨k, hk16⟩ : Fin 16) p) = x₁ (ix2 (0 : Fin 1) p) :=
  concatenate_apply_piece 0 xs h _ k hk S1x16000 x₁ hxk rfl k hpre (ix2 (0 : Fin 1) p)
    (fun b hb => by
      match b with
      | ⟨0, _⟩ => exact absurd (Fin.ext rfl) hb
      | ⟨1, _⟩ => rfl)
    (Nat.add_zero k)

/-! ## The stored block at an index -/

/-- Entry (p, q) of the stored block is entry q of row p's 4×4 matrix in the expanded spelling: the final transpose
    reads stacked row q at lane p, and that row is the q-th of the sixteen per-row results. -/
theorem entry_apply (x0 : Vec Ideal S16000x6 .f32) (p : Fin 16000) (q : Fin 16) :
    k0_pay1 (k0_pay3 x0) (k0_pay4 x0) (k0_pay5 x0) (k0_pay6 x0) (k0_pay7 x0) (k0_pay8 x0) (k0_pay13 x0) (k0_pay14 x0)
      (k0_pay16 x0) (k0_pay17 x0) (k0_pay18 x0) (k0_pay19 x0) (k0_pay20 x0) (k0_pay21 x0) (ix2 p q)
      = So3.kerEntry (x0 (ix2 p (0 : Fin 6))) (x0 (ix2 p (1 : Fin 6))) (x0 (ix2 p (2 : Fin 6)))
          (x0 (ix2 p (3 : Fin 6))) (x0 (ix2 p (4 : Fin 6))) (x0 (ix2 p (5 : Fin 6))) q := by
  unfold k0_pay1
  refine (transpose_ix2_apply _ _ p q).trans ?_
  obtain ⟨k, hk⟩ := q
  interval_cases k
  · refine (stack_apply _ _ 0 hk (by show _ < 16; omega) _ rfl rfl p).trans ?_
    rw [r00_apply]; rfl
  · refine (stack_apply _ _ 1 hk (by show _ < 16; omega) _ rfl rfl p).trans ?_
    show k0_pay14 x0 (ix2 (0 : Fin 1) p) * k0_pay19 x0 (ix2 (0 : Fin 1) p) - k0_pay13 x0 (ix2 (0 : Fin 1) p) * k0_pay5 x0 (ix2 (0 : Fin 1) p) = _
    rw [coefB_apply, wxy_apply, coefA_apply, col2_apply]; rfl
  · refine (stack_apply _ _ 2 hk (by show _ < 16; omega) _ rfl rfl p).trans ?_
    show k0_pay14 x0 (ix2 (0 : Fin 1) p) * k0_pay21 x0 (ix2 (0 : Fin 1) p) + k0_pay13 x0 (ix2 (0 : Fin 1) p) * k0_pay4 x0 (ix2 (0 : Fin 1) p) = _
    rw [coefB_apply, wzx_apply, coefA_apply, col1_apply]; rfl
  · refine (stack_apply _ _ 3 hk (by show _ < 16; omega) _ rfl rfl p).trans ?_
    rw [col3_apply]; rfl
  · refine (stack_apply _ _ 4 hk (by show _ < 16; omega) _ rfl rfl p).trans ?_
    show k0_pay14 x0 (ix2 (0 : Fin 1) p) * k0_pay19 x0 (ix2 (0 : Fin 1) p) + k0_pay13 x0 (ix2 (0 : Fin 1) p) * k0_pay5 x0 (ix2 (0 : Fin 1) p) = _
    rw [coefB_apply, wxy_apply, coefA_apply, col2_apply]; rfl
  · refine (stack_apply _ _ 5 hk (by show _ < 16; omega) _ rfl rfl p).trans ?_
    rw [r11_apply]; rfl
  · refine (stack_apply _ _ 6 hk (by show _ < 16; omega) _ rfl rfl p).trans ?_
    show k0_pay14 x0 (ix2 (0 : Fin 1) p) * k0_pay20 x0 (ix2 (0 : Fin 1) p) - k0_pay13 x0 (ix2 (0 : Fin 1) p) * k0_pay3 x0 (ix2 (0 : Fin 1) p) = _
    rw [coefB_apply, wyz_apply, coefA_apply, col0_apply]; rfl
  · refine (stack_apply _ _ 7 hk (by show _ < 16; omega) _ rfl rfl p).trans ?_
    rw [col4_apply]; rfl
  · refine (stack_apply _ _ 8 hk (by show _ < 16; omega) _ rfl rfl p).trans ?_
    show k0_pay14 x0 (ix2 (0 : Fin 1) p) * k0_pay21 x0 (ix2 (0 : Fin 1) p) - k0_pay13 x0 (ix2 (0 : Fin 1) p) * k0_pay4 x0 (ix2 (0 : Fin 1) p) = _
    rw [coefB_apply, wzx_apply, coefA_apply, col1_apply]; rfl
  · refine (stack_apply _ _ 9 hk (by show _ < 16; omega) _ rfl rfl p).trans ?_
    show k0_pay14 x0 (ix2 (0 : Fin 1) p) * k0_pay20 x0 (ix2 (0 : Fin 1) p) + k0_pay13 x0 (ix2 (0 : Fin 1) p) * k0_pay3 x0 (ix2 (0 : Fin 1) p) = _
    rw [coefB_apply, wyz_apply, coefA_apply, col0_apply]; rfl
  · refine (stack_apply _ _ 10 hk (by show _ < 16; omega) _ rfl rfl p).trans ?_
    rw [r22_apply]; rfl
  · refine (stack_apply _ _ 11 hk (by show _ < 16; omega) _ rfl rfl p).trans ?_
    rw [col5_apply]; rfl
  · refine (stack_apply _ _ 12 hk (by show _ < 16; omega) _ rfl rfl p).trans ?_
    rfl
  · refine (stack_apply _ _ 13 hk (by show _ < 16; omega) _ rfl rfl p).trans ?_
    rfl
  · refine (stack_apply _ _ 14 hk (by show _ < 16; omega) _ rfl rfl p).trans ?_
    rfl
  · refine (stack_apply _ _ 15 hk (by show _ < 16; omega) _ rfl rfl p).trans ?_
    rfl

end Cert.KernelIdeal.KerValue

end
-- ==== Proof.KerArray.lean ====
/-
  From blocks to the array, and through the final reshape.

  The grid has 250 points; point t stages rows 16000·t … 16000·t + 15999 of the [4000000, 6] argument and writes
  back the same rows of the [4000000, 16] output. Entry (p, q) of the block a point writes depends on row p of the
  block it staged only, so the output array as a whole is ONE function of the argument array: entry (i, q) is
  entry q of row i's 4×4 matrix. The blocks tile the output (row i lies in the block of point i / 16000), so the
  output array ends holding that function everywhere; the reshape to [4000000, 4, 4] then puts entry q = 4·r + c
  of row i at (i, r, c).
-/
import proofs.«127277_j31421980737562_2_alg».proof.Proof.Gen.KernelIdeal.Frame
import proofs.«127277_j31421980737562_2_alg».proof.Proof.KerBody
import Idealize.ShloMosaic.Lib.Pipeline.Value
import Idealize.ShloMosaic.Lib.StableHlo.Run

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The output array as one function of the argument array -/

/-- Entry (i, q) of the [4000000, 16] array: entry q of the 4×4 matrix of row i of the argument. -/
def rows16 (X : FVec Ideal S4000000x6 .f32) : FVec Ideal S4000000x16 .f32 := fun i =>
  So3.kerEntry (X (ix2 (⟨(i 0).val, (i 0).isLt⟩ : Fin 4000000) (0 : Fin 6))) (X (ix2 (⟨(i 0).val, (i 0).isLt⟩ : Fin 4000000) (1 : Fin 6)))
    (X (ix2 (⟨(i 0).val, (i 0).isLt⟩ : Fin 4000000) (2 : Fin 6))) (X (ix2 (⟨(i 0).val, (i 0).isLt⟩ : Fin 4000000) (3 : Fin 6)))
    (X (ix2 (⟨(i 0).val, (i 0).isLt⟩ : Fin 4000000) (4 : Fin 6))) (X (ix2 (⟨(i 0).val, (i 0).isLt⟩ : Fin 4000000) (5 : Fin 6)))
    (⟨(i 1).val, (i 1).isLt⟩ : Fin 16)

theorem hz : (![0, 0] : Fin 2 → Nat) = fun _ => 0 := funext fun a => by fin_cases a <;> rfl

/-- The printed index maps over the grid: both windows' blocks move down the rows with the point and stay in column
    block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The stored block, entry by entry, is the array function read where the block sits: stated over a block x0 and an
    array X that agree row by row (row p of the block is row i₀ of the array). -/
theorem block_entry (x0 : Vec Ideal S16000x6 .f32) (X : FVec Ideal S4000000x6 .f32) (y : S16000x16.Idx) (i : S4000000x16.Idx)
    (hrow : ∀ k : Fin 6, x0 (ix2 (⟨(y 0).val, (y 0).isLt⟩ : Fin 16000) k) = X (ix2 (⟨(i 0).val, (i 0).isLt⟩ : Fin 4000000) k))
    (hcol : (i 1).val = (y 1).val) :
    k0_pay1 (k0_pay3 x0) (k0_pay4 x0) (k0_pay5 x0) (k0_pay6 x0) (k0_pay7 x0) (k0_pay8 x0) (k0_pay13 x0) (k0_pay14 x0)
      (k0_pay16 x0) (k0_pay17 x0) (k0_pay18 x0) (k0_pay19 x0) (k0_pay20 x0) (k0_pay21 x0) y = rows16 X i := by
  have hy : y = ix2 (⟨(y 0).val, (y 0).isLt⟩ : Fin 16000) (⟨(y 1).val, (y 1).isLt⟩ : Fin 16) := eq_ix2 y
  rw [hy, entry_apply]
  unfold rows16
  rw [hrow 0, hrow 1, hrow 2, hrow 3, hrow 4, hrow 5]
  congr 1
  exact Fin.ext hcol.symm

/-! ## What a point writes back -/

/-- What point t writes back is block t of the array function of the argument array as the region finds it. -/
theorem flushed_eq (c : Dev nD) (t : Fin cfg0.N) :
    (dats m 0 c).flushed 1 t = ((cfg0.win 1).blk t).view.read (Elt Ideal) (rows16 (V m c main_arg0)) := by
  show (cfg0.win 1).cut (grid0.coords t) ((dats m 0 c).after 1 t) = _
  rw [after0_1]
  unfold out0_1
  rw [View.canon_unit_zero hz]
  simp only [View.ld_unit_zero (S := S16000x6) hz]
  obtain ⟨e00, e01, e10, e11⟩ := idx_facts t
  funext j
  refine block_entry (iblk m c 0 t) (V m c main_arg0) j (((cfg0.win 1).blk t).view.emb j) (fun k => ?_) ?_
  · show V m c main_arg0 (((cfg0.win 0).blk t).view.emb (ix2 (⟨(j 0).val, (j 0).isLt⟩ : Fin 16000) k)) = _
    have h0 : ((cfg0.win 0).blk t).view.emb (ix2 (⟨(j 0).val, (j 0).isLt⟩ : Fin 16000) k)
        = ix2 (⟨((((cfg0.win 1).blk t).view.emb j) 0).val, ((((cfg0.win 1).blk t).view.emb j) 0).isLt⟩ : Fin 4000000) k := by
      funext a; apply Fin.ext
      match a with
      | ⟨0, _⟩ => show win0_0.index t (0 : Fin 2) * 16000 + 1 * (j 0).val = win0_1.index t (0 : Fin 2) * 16000 + 1 * (j 0).val; omega
      | ⟨1, _⟩ => show win0_0.index t (1 : Fin 2) * 6 + 1 * k.val = k.val; omega
    rw [h0]
  · show win0_1.index t (1 : Fin 2) * 16 + 1 * (j 1).val = (j 1).val; omega

/-! ## The blocks tile the output -/

/-- An index of the output is in point t's block iff each coordinate is in the block's range on its axis. -/
theorem mem_blk (t : Fin cfg0.N) (i : S4000000x16.Idx) :
    i ∈ ((cfg0.win 1).blk t).view.set ↔ ∀ a : Fin 2, win0_1.index t a * S16000x16.size a ≤ (i a).val
      ∧ (i a).val < win0_1.index t a * S16000x16.size a + S16000x16.size a := by
  show i ∈ ((View.whole main_v0).slice (win0_1.rect t)).set ↔ _
  rw [View.set_slice_whole, Rect.mem_set_unit]
  exact Iff.rfl

/-- Row i of the output lies in the block of point i / 16000, which writes back. -/
theorem cover (i : S4000000x16.Idx) :
    ∃ t : Fin cfg0.N, (cfg0.win 1).flush t = true ∧ i ∈ ((cfg0.win 1).blk t).view.set := by
  have hi0 : (i 0).val < 4000000 := (i 0).isLt
  have hi1 : (i 1).val < 16 := (i 1).isLt
  have ht : (i 0).val / 16000 < cfg0.N := by show _ < grid0.N; rw [N_0]; omega
  obtain ⟨-, -, e10, e11⟩ := idx_facts ⟨(i 0).val / 16000, ht⟩
  have e10' : win0_1.index ⟨(i 0).val / 16000, ht⟩ (0 : Fin 2) = (i 0).val / 16000 := e10
  refine ⟨⟨(i 0).val / 16000, ht⟩, flush0_1 _, ?_⟩
  rw [mem_blk]
  intro a
  match a with
  | ⟨0, _⟩ =>
    show win0_1.index ⟨(i 0).val / 16000, ht⟩ (0 : Fin 2) * 16000 ≤ (i 0).val
      ∧ (i 0).val < win0_1.index ⟨(i 0).val / 16000, ht⟩ (0 : Fin 2) * 16000 + 16000
    omega
  | ⟨1, _⟩ =>
    show win0_1.index ⟨(i 0).val / 16000, ht⟩ (1 : Fin 2) * 16 ≤ (i 1).val
      ∧ (i 1).val < win0_1.index ⟨(i 0).val / 16000, ht⟩ (1 : Fin 2) * 16 + 16
    omega

/-- The output array after the run is the array function of the argument array as launched. -/
theorem final (c : Dev nD) :
    (dats m 0 c).arrAt 1 cfg0.N = rows16 (m ((c : Thread nD τ).loc main_arg0)) :=
  (dats m 0 c).arrAt_eq_of_cover 1 (rows16 (V m c main_arg0)) (fun t _ => flushed_eq m c t) cover

/-! ## Through the reshape -/

/-- The program's result: the [4000000, 16] array recast to [4000000, 4, 4]. -/
def kerOut (X : FVec Ideal S4000000x6 .f32) : FVec Ideal S4000000x4x4 .f32 :=
  shapeCast S4000000x4x4 (rows16 X) shapeCasts_S4000000x16_S4000000x4x4

/-- After the frame run the result buffer holds the recast output array. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v1) = kerOut (m ((c : Thread nD τ).loc main_arg0)) := by
  refine ((h c).2 main_v1 (Pipeline.mem_restRefs_of main_v1 rfl (fun w => by fin_cases w <;> decide))).trans ?_
  unfold Pipeline.afterTail₀
  show StableHlo.after hostOps1 _ (Proc.devRef .tc main_v1) = _
  after_results
  have e := (Pipeline.withArrays_arr spec0 launch0.win.arr_inj c (V0 m c) (fun w => (dats m 0 c).arrAt w cfg0.N) 1).trans (final m c)
  funext i
  exact congrFun (congrArg (fun Y => shapeCast S4000000x4x4 Y shapeCasts_S4000000x16_S4000000x4x4) e) i

/-- The result at (b, r, c) is entry 4·r + c of row b's 4×4 matrix: the recast keeps the row-major position, and
    (b·4 + r)·4 + c = b·16 + (4·r + c). -/
theorem kerOut_apply (X : FVec Ideal S4000000x6 .f32) (b : Fin 4000000) (r c : Fin 4) :
    kerOut X (ix3 b r c)
      = So3.kerEntry (X (ix2 b (0 : Fin 6))) (X (ix2 b (1 : Fin 6))) (X (ix2 b (2 : Fin 6))) (X (ix2 b (3 : Fin 6))) (X (ix2 b (4 : Fin 6))) (X (ix2 b (5 : Fin 6)))
          (⟨4 * r.val + c.val, by omega⟩ : Fin 16) := by
  unfold kerOut
  refine (shapeCast_apply (rows16 X) shapeCasts_S4000000x16_S4000000x4x4 (ix3 b r c)
    (ix2 b (⟨4 * r.val + c.val, by omega⟩ : Fin 16)) ?_).trans ?_
  · rw [Shape.rowMajor_val_two, Shape.rowMajor_val_three]
    show b.val * 16 + (4 * r.val + c.val) = (b.val * 4 + r.val) * 4 + c.val
    omega
  · rfl

/-! ## The run, read -/

/-- Every weakly fair execution of the program terminates with the result buffer at the recast array function of the
    argument as launched, and the argument unchanged. -/
theorem run : θ_run defs (onTc (τ := τ) (main (F := Ideal))) ⟨m, fun _ => 0, ρ⟩ fun r => ∀ c : Dev nD,
      r.2.mem ((c : Thread nD τ).loc main_v1) = kerOut (m ((c : Thread nD τ).loc main_arg0))
      ∧ r.2.mem ((c : Thread nD τ).loc main_arg0) = m ((c : Thread nD τ).loc main_arg0) :=
  (θ_run defs _ _).mono (fun r h c => ⟨result_eq m r h c,
      ((h c).1 0).trans (((dats m 0 c).arrAt_in 0 rfl _).trans ((A_eq m c 0).trans (V_main_arg0 m c)))⟩)
    (run_main m ρ)

end Cert.KernelIdeal.KerValue

end
-- ==== Proof.RefOps.lean ====
/-
  The reference program's run, as a straight line.

  @main is eighty-four whole-array operations (the three calls of the outlined select helpers written out at their
  call sites, each of the helper's operations at the buffers that call gives it). They are listed in three stretches, cut where the mathematics cuts:
  `opsA` builds the skew-symmetric matrix K of the rotation vector (and the two slices w, t of the argument and the
  constant last row), `opsB` computes θ² and from it the two coefficients A and B, `opsC` forms K·K, the identity,
  R = (I + A·K) + B·K², and joins R, t and the last row into the 4×4 result.

  Every weakly fair execution of the program terminates, and ends with every buffer at the fold of these operations
  over the launch memory (`run_all`); what that fold holds at the result buffer is read in the modules that import this one.
-/
import proofs.«127277_j31421980737562_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first thirty operations: the last row's constant, the slices w = x[:, 0:3] and t = x[:, 3:6], the three
    columns of w, and K stacked from its three rows [0, −wz, wy], [wz, 0, −wx], [−wy, wx, 0]. -/
abbrev opsA : List (HloOp τ sig (Elt F)) :=
  [ nullary main_cst (fun i => FloatOps.ofBits .f32 (lit0 (S1x1x4.rowMajor i))),
    unary main_arg0 main_v0 ((extractStridedSlice S4000000x3 ![0, 0] · slices_S4000000x6_S4000000x3_0_0) : (⟨S4000000x6, .f32⟩ : BufTy).Contents (Elt F) → (⟨S4000000x3, .f32⟩ : BufTy).Contents (Elt F)),
    unary main_arg0 main_v1 ((extractStridedSlice S4000000x3 ![0, 3] · slices_S4000000x6_S4000000x3_0_3) : (⟨S4000000x6, .f32⟩ : BufTy).Contents (Elt F) → (⟨S4000000x3, .f32⟩ : BufTy).Contents (Elt F)),
    unary main_v0 main_v2 ((extractStridedSlice S4000000x1 ![0, 0] · slices_S4000000x3_S4000000x1_0_0) : (⟨S4000000x3, .f32⟩ : BufTy).Contents (Elt F) → (⟨S4000000x1, .f32⟩ : BufTy).Contents (Elt F)),
    reshape main_v2 main_v3 rfl shapeCasts_S4000000x1_S4000000,
    unary main_v0 main_v4 ((extractStridedSlice S4000000x1 ![0, 1] · slices_S4000000x3_S4000000x1_0_1) : (⟨S4000000x3, .f32⟩ : BufTy).Contents (Elt F) → (⟨S4000000x1, .f32⟩ : BufTy).Contents (Elt F)),
    reshape main_v4 main_v5 rfl shapeCasts_S4000000x1_S4000000,
    unary main_v0 main_v6 ((extractStridedSlice S4000000x1 ![0, 2] · slices_S4000000x3_S4000000x1_0_2) : (⟨S4000000x3, .f32⟩ : BufTy).Contents (Elt F) → (⟨S4000000x1, .f32⟩ : BufTy).Contents (Elt F)),
    reshape main_v6 main_v7 rfl shapeCasts_S4000000x1_S4000000,
    nullary main_cst_0 (constant S_ .f32 0x00000000#32),
    unary main_cst_0 main_v8 (broadcastInDim S4000000 ![] bcast_S_S4000000 : (⟨S_, .f32⟩ : BufTy).Contents (Elt F) → (⟨S4000000, .f32⟩ : BufTy).Contents (Elt F)),
    unary main_v7 main_v9 (Host.negf : (⟨S4000000, .f32⟩ : BufTy).Contents (Elt F) → (⟨S4000000, .f32⟩ : BufTy).Contents (Elt F)),
    unary main_v8 main_v10 (broadcastInDim S4000000x1 ![0] bcast_S4000000_S4000000x1_0 : (⟨S4000000, .f32⟩ : BufTy).Contents (Elt F) → (⟨S4000000x1, .f32⟩ : BufTy).Contents (Elt F)),
    unary main_v9 main_v11 (broadcastInDim S4000000x1 ![0] bcast_S4000000_S4000000x1_0 : (⟨S4000000, .f32⟩ : BufTy).Contents (Elt F) → (⟨S4000000x1, .f32⟩ : BufTy).Contents (Elt F)),
    unary main_v5 main_v12 (broadcastInDim S4000000x1 ![0] bcast_S4000000_S4000000x1_0 : (⟨S4000000, .f32⟩ : BufTy).Contents (Elt F) → (⟨S4000000x1, .f32⟩ : BufTy).Contents (Elt F)),
    nary ![main_v10, main_v11, main_v12] main_v13 (fun u => concatenate S4000000x3 1 [⟨S4000000x1, u 0⟩, ⟨S4000000x1, u 1⟩, ⟨S4000000x1, u 2⟩] concatenates_S4000000x1_S4000000x1_S4000000x1_S4000000x3_d1),
    unary main_v3 main_v14 (Host.negf : (⟨S4000000, .f32⟩ : BufTy).Contents (Elt F) → (⟨S4000000, .f32⟩ : BufTy).Contents (Elt F)),
    unary main_v7 main_v15 (broadcastInDim S4000000x1 ![0] bcast_S4000000_S4000000x1_0 : (⟨S4000000, .f32⟩ : BufTy).Contents (Elt F) → (⟨S4000000x1, .f32⟩ : BufTy).Contents (Elt F)),
    unary main_v8 main_v16 (broadcastInDim S4000000x1 ![0] bcast_S4000000_S4000000x1_0 : (⟨S4000000, .f32⟩ : BufTy).Contents (Elt F) → (⟨S4000000x1, .f32⟩ : BufTy).Contents (Elt F)),
    unary main_v14 main_v17 (broadcastInDim S4000000x1 ![0] bcast_S4000000_S4000000x1_0 : (⟨S4000000, .f32⟩ : BufTy).Contents (Elt F) → (⟨S4000000x1, .f32⟩ : BufTy).Contents (Elt F)),
    nary ![main_v15, main_v16, main_v17] main_v18 (fun u => concatenate S4000000x3 1 [⟨S4000000x1, u 0⟩, ⟨S4000000x1, u 1⟩, ⟨S4000000x1, u 2⟩] concatenates_S4000000x1_S4000000x1_S4000000x1_S4000000x3_d1),
    unary main_v5 main_v19 (Host.negf : (⟨S4000000, .f32⟩ : BufTy).Contents (Elt F) → (⟨S4000000, .f32⟩ : BufTy).Contents (Elt F)),
    unary main_v19 main_v20 (broadcastInDim S4000000x1 ![0] bcast_S4000000_S4000000x1_0 : (⟨S4000000, .f32⟩ : BufTy).Contents (Elt F) → (⟨S4000000x1, .f32⟩ : BufTy).Contents (Elt F)),
    unary main_v3 main_v21 (broadcastInDim S4000000x1 ![0] bcast_S4000000_S4000000x1_0 : (⟨S4000000, .f32⟩ : BufTy).Contents (Elt F) → (⟨S4000000x1, .f32⟩ : BufTy).Contents (Elt F)),
    unary main_v8 main_v22 (broadcastInDim S4000000x1 ![0] bcast_S4000000_S4000000x1_0 : (⟨S4000000, .f32⟩ : BufTy).Contents (Elt F) → (⟨S4000000x1, .f32⟩ : BufTy).Contents (Elt F)),
    nary ![main_v20, main_v21, main_v22] main_v23 (fun u => concatenate S4000000x3 1 [⟨S4000000x1, u 0⟩, ⟨S4000000x1, u 1⟩, ⟨S4000000x1, u 2⟩] concatenates_S4000000x1_S4000000x1_S4000000x1_S4000000x3_d1),
    unary main_v13 main_v24 (broadcastInDim S4000000x1x3 ![0, 2] bcast_S4000000x3_S4000000x1x3_0_2 : (⟨S4000000x3, .f32⟩ : BufTy).Contents (Elt F) → (⟨S4000000x1x3, .f32⟩ : BufTy).Contents (Elt F)),
    unary main_v18 main_v25 (broadcastInDim S4000000x1x3 ![0, 2] bcast_S4000000x3_S4000000x1x3_0_2 : (⟨S4000000x3, .f32⟩ : BufTy).Contents (Elt F) → (⟨S4000000x1x3, .f32⟩ : BufTy).Contents (Elt F)),
    unary main_v23 main_v26 (broadcastInDim S4000000x1x3 ![0, 2] bcast_S4000000x3_S4000000x1x3_0_2 : (⟨S4000000x3, .f32⟩ : BufTy).Contents (Elt F) → (⟨S4000000x1x3, .f32⟩ : BufTy).Contents (Elt F)),
    nary ![main_v24, main_v25, main_v26] main_v27 (fun u => concatenate S4000000x3x3 1 [⟨S4000000x1x3, u 0⟩, ⟨S4000000x1x3, u 1⟩, ⟨S4000000x1x3, u 2⟩] concatenates_S4000000x1x3_S4000000x1x3_S4000000x1x3_S4000000x3x3_d1) ]

/-- The next thirty-two: θ² = 0 + Σ w·w, the mask θ² < ε, the guarded root θ, and the coefficients
    A = (θ² < ε ? 1 − θ²/6 : sin θ / θ) and B = (θ² < ε ? 1/2 − θ²/24 : (1 − cos θ)/θ²). -/
abbrev opsB : List (HloOp τ sig (Elt F)) :=
  [ binary main_v0 main_v0 main_v28 (mulf : (⟨S4000000x3, .f32⟩ : BufTy).Contents (Elt F) → (⟨S4000000x3, .f32⟩ : BufTy).Contents (Elt F) → (⟨S4000000x3, .f32⟩ : BufTy).Contents (Elt F)),
    nullary main_cst_1 (constant S_ .f32 0x00000000#32),
    binary main_v28 main_cst_1 main_v29 ((fun x v => Host.reduceAdd x v reducesTo_S4000000x3_S4000000_d1 h_S_) : (⟨S4000000x3, .f32⟩ : BufTy).Contents (Elt F) → (⟨S_, .f32⟩ : BufTy).Contents (Elt F) → (⟨S4000000, .f32⟩ : BufTy).Contents (Elt F)),
    nullary main_cst_2 (constant S_ .f32 0x322BCC77#32),
    unary main_cst_2 main_v30 (broadcastInDim S4000000 ![] bcast_S_S4000000 : (⟨S_, .f32⟩ : BufTy).Contents (Elt F) → (⟨S4000000, .f32⟩ : BufTy).Contents (Elt F)),
    binary main_v29 main_v30 main_v31 (cmpf .olt : (⟨S4000000, .f32⟩ : BufTy).Contents (Elt F) → (⟨S4000000, .f32⟩ : BufTy).Contents (Elt F) → (⟨S4000000, .i1⟩ : BufTy).Contents (Elt F)),
    nullary main_cst_3 (constant S_ .f32 0x3F800000#32),
    unary main_cst_3 main_call0_v0 (id : (⟨S_, .f32⟩ : BufTy).Contents (Elt F) → (⟨S_, .f32⟩ : BufTy).Contents (Elt F)),
    unary main_call0_v0 main_call0_v1 (broadcastInDim S4000000 ![] bcast_S_S4000000 : (⟨S_, .f32⟩ : BufTy).Contents (Elt F) → (⟨S4000000, .f32⟩ : BufTy).Contents (Elt F)),
    ternary main_v31 main_call0_v1 main_v29 main_v32 (select : (⟨S4000000, .i1⟩ : BufTy).Contents (Elt F) → (⟨S4000000, .f32⟩ : BufTy).Contents (Elt F) → (⟨S4000000, .f32⟩ : BufTy).Contents (Elt F) → (⟨S4000000, .f32⟩ : BufTy).Contents (Elt F)),
    unary main_v32 main_v33 (Host.sqrt : (⟨S4000000, .f32⟩ : BufTy).Contents (Elt F) → (⟨S4000000, .f32⟩ : BufTy).Contents (Elt F)),
    nullary main_cst_4 (constant S_ .f32 0x40C00000#32),
    unary main_cst_4 main_v34 (broadcastInDim S4000000 ![] bcast_S_S4000000 : (⟨S_, .f32⟩ : BufTy).Contents (Elt F) → (⟨S4000000, .f32⟩ : BufTy).Contents (Elt F)),
    binary main_v29 main_v34 main_v35 (Host.divf : (⟨S4000000, .f32⟩ : BufTy).Contents (Elt F) → (⟨S4000000, .f32⟩ : BufTy).Contents (Elt F) → (⟨S4000000, .f32⟩ : BufTy).Contents (Elt F)),
    nullary main_cst_5 (constant S_ .f32 0x3F800000#32),
    unary main_cst_5 main_v36 (broadcastInDim S4000000 ![] bcast_S_S4000000 : (⟨S_, .f32⟩ : BufTy).Contents (Elt F) → (⟨S4000000, .f32⟩ : BufTy).Contents (Elt F)),
    binary main_v36 main_v35 main_v37 (subf : (⟨S4000000, .f32⟩ : BufTy).Contents (Elt F) → (⟨S4000000, .f32⟩ : BufTy).Contents (Elt F) → (⟨S4000000, .f32⟩ : BufTy).Contents (Elt F)),
    unary main_v33 main_v38 (Host.sin : (⟨S4000000, .f32⟩ : BufTy).Contents (Elt F) → (⟨S4000000, .f32⟩ : BufTy).Contents (Elt F)),
    binary main_v38 main_v33 main_v39 (Host.divf : (⟨S4000000, .f32⟩ : BufTy).Contents (Elt F) → (⟨S4000000, .f32⟩ : BufTy).Contents (Elt F) → (⟨S4000000, .f32⟩ : BufTy).Contents (Elt F)),
    ternary main_v31 main_v37 main_v39 main_v40 (select : (⟨S4000000, .i1⟩ : BufTy).Contents (Elt F) → (⟨S4000000, .f32⟩ : BufTy).Contents (Elt F) → (⟨S4000000, .f32⟩ : BufTy).Contents (Elt F) → (⟨S4000000, .f32⟩ : BufTy).Contents (Elt F)),
    nullary main_cst_6 (constant S_ .f32 0x41C00000#32),
    unary main_cst_6 main_v41 (broadcastInDim S4000000 ![] bcast_S_S4000000 : (⟨S_, .f32⟩ : BufTy).Contents (Elt F) → (⟨S4000000, .f32⟩ : BufTy).Contents (Elt F)),
    binary main_v29 main_v41 main_v42 (Host.divf : (⟨S4000000, .f32⟩ : BufTy).Contents (Elt F) → (⟨S4000000, .f32⟩ : BufTy).Contents (Elt F) → (⟨S4000000, .f32⟩ : BufTy).Contents (Elt F)),
    nullary main_cst_7 (constant S_ .f32 0x3F000000#32),
    unary main_cst_7 main_v43 (broadcastInDim S4000000 ![] bcast_S_S4000000 : (⟨S_, .f32⟩ : BufTy).Contents (Elt F) → (⟨S4000000, .f32⟩ : BufTy).Contents (Elt F)),
    binary main_v43 main_v42 main_v44 (subf : (⟨S4000000, .f32⟩ : BufTy).Contents (Elt F) → (⟨S4000000, .f32⟩ : BufTy).Contents (Elt F) → (⟨S4000000, .f32⟩ : BufTy).Contents (Elt F)),
    unary main_v33 main_v45 (Host.cos : (⟨S4000000, .f32⟩ : BufTy).Contents (Elt F) → (⟨S4000000, .f32⟩ : BufTy).Contents (Elt F)),
    nullary main_cst_8 (constant S_ .f32 0x3F800000#32),
    unary main_cst_8 main_v46 (broadcastInDim S4000000 ![] bcast_S_S4000000 : (⟨S_, .f32⟩ : BufTy).Contents (Elt F) → (⟨S4000000, .f32⟩ : BufTy).Contents (Elt F)),
    binary main_v46 main_v45 main_v47 (subf : (⟨S4000000, .f32⟩ : BufTy).Contents (Elt F) → (⟨S4000000, .f32⟩ : BufTy).Contents (Elt F) → (⟨S4000000, .f32⟩ : BufTy).Contents (Elt F)),
    binary main_v47 main_v29 main_v48 (Host.divf : (⟨S4000000, .f32⟩ : BufTy).Contents (Elt F) → (⟨S4000000, .f32⟩ : BufTy).Contents (Elt F) → (⟨S4000000, .f32⟩ : BufTy).Contents (Elt F)),
    ternary main_v31 main_v44 main_v48 main_v49 (select : (⟨S4000000, .i1⟩ : BufTy).Contents (Elt F) → (⟨S4000000, .f32⟩ : BufTy).Contents (Elt F) → (⟨S4000000, .f32⟩ : BufTy).Contents (Elt F) → (⟨S4000000, .f32⟩ : BufTy).Contents (Elt F)) ]

/-- The last twenty-two: K·K, the identity matrix from two iotas, R = (I + A·K) + B·(K·K), then R beside t and above
    the last row. -/
abbrev opsC : List (HloOp τ sig (Elt F)) :=
  [ binary main_v27 main_v27 main_v50 ((fun l r => Host.dotGeneral dot_S4000000x3x3_S4000000x3x3_S4000000x3x3_2_1_1_2_0_0 none l r) : (⟨S4000000x3x3, .f32⟩ : BufTy).Contents (Elt F) → (⟨S4000000x3x3, .f32⟩ : BufTy).Contents (Elt F) → (⟨S4000000x3x3, .f32⟩ : BufTy).Contents (Elt F)),
    nullary main_v51 (iotaInDim S3x3 32 0),
    nullary main_v52 (iotaInDim S3x3 32 1),
    nullary main_c (constantI S_ 32 0#32),
    unary main_c main_v53 (broadcastInDim S3x3 ![] bcast_S_S3x3 : (⟨S_, .i32⟩ : BufTy).Contents (Elt F) → (⟨S3x3, .i32⟩ : BufTy).Contents (Elt F)),
    binary main_v51 main_v53 main_v54 (addi : (⟨S3x3, .i32⟩ : BufTy).Contents (Elt F) → (⟨S3x3, .i32⟩ : BufTy).Contents (Elt F) → (⟨S3x3, .i32⟩ : BufTy).Contents (Elt F)),
    binary main_v54 main_v52 main_v55 (cmpi .eq : (⟨S3x3, .i32⟩ : BufTy).Contents (Elt F) → (⟨S3x3, .i32⟩ : BufTy).Contents (Elt F) → (⟨S3x3, .i1⟩ : BufTy).Contents (Elt F)),
    unary main_v55 main_v56 (uitofp .f32 : (⟨S3x3, .i1⟩ : BufTy).Contents (Elt F) → (⟨S3x3, .f32⟩ : BufTy).Contents (Elt F)),
    unary main_v40 main_v57 (broadcastInDim S4000000x1x1 ![0] bcast_S4000000_S4000000x1x1_0 : (⟨S4000000, .f32⟩ : BufTy).Contents (Elt F) → (⟨S4000000x1x1, .f32⟩ : BufTy).Contents (Elt F)),
    unary main_v57 main_v58 (broadcastInDim S4000000x3x3 ![0, 1, 2] bcast_S4000000x1x1_S4000000x3x3_0_1_2 : (⟨S4000000x1x1, .f32⟩ : BufTy).Contents (Elt F) → (⟨S4000000x3x3, .f32⟩ : BufTy).Contents (Elt F)),
    binary main_v58 main_v27 main_v59 (mulf : (⟨S4000000x3x3, .f32⟩ : BufTy).Contents (Elt F) → (⟨S4000000x3x3, .f32⟩ : BufTy).Contents (Elt F) → (⟨S4000000x3x3, .f32⟩ : BufTy).Contents (Elt F)),
    unary main_v56 main_v60 (broadcastInDim S1x3x3 ![1, 2] bcast_S3x3_S1x3x3_1_2 : (⟨S3x3, .f32⟩ : BufTy).Contents (Elt F) → (⟨S1x3x3, .f32⟩ : BufTy).Contents (Elt F)),
    unary main_v60 main_v61 (broadcastInDim S4000000x3x3 ![0, 1, 2] bcast_S1x3x3_S4000000x3x3_0_1_2 : (⟨S1x3x3, .f32⟩ : BufTy).Contents (Elt F) → (⟨S4000000x3x3, .f32⟩ : BufTy).Contents (Elt F)),
    binary main_v61 main_v59 main_v62 (addf : (⟨S4000000x3x3, .f32⟩ : BufTy).Contents (Elt F) → (⟨S4000000x3x3, .f32⟩ : BufTy).Contents (Elt F) → (⟨S4000000x3x3, .f32⟩ : BufTy).Contents (Elt F)),
    unary main_v49 main_v63 (broadcastInDim S4000000x1x1 ![0] bcast_S4000000_S4000000x1x1_0 : (⟨S4000000, .f32⟩ : BufTy).Contents (Elt F) → (⟨S4000000x1x1, .f32⟩ : BufTy).Contents (Elt F)),
    unary main_v63 main_v64 (broadcastInDim S4000000x3x3 ![0, 1, 2] bcast_S4000000x1x1_S4000000x3x3_0_1_2 : (⟨S4000000x1x1, .f32⟩ : BufTy).Contents (Elt F) → (⟨S4000000x3x3, .f32⟩ : BufTy).Contents (Elt F)),
    binary main_v64 main_v50 main_v65 (mulf : (⟨S4000000x3x3, .f32⟩ : BufTy).Contents (Elt F) → (⟨S4000000x3x3, .f32⟩ : BufTy).Contents (Elt F) → (⟨S4000000x3x3, .f32⟩ : BufTy).Contents (Elt F)),
    binary main_v62 main_v65 main_v66 (addf : (⟨S4000000x3x3, .f32⟩ : BufTy).Contents (Elt F) → (⟨S4000000x3x3, .f32⟩ : BufTy).Contents (Elt F) → (⟨S4000000x3x3, .f32⟩ : BufTy).Contents (Elt F)),
    unary main_v1 main_v67 (broadcastInDim S4000000x3x1 ![0, 1] bcast_S4000000x3_S4000000x3x1_0_1 : (⟨S4000000x3, .f32⟩ : BufTy).Contents (Elt F) → (⟨S4000000x3x1, .f32⟩ : BufTy).Contents (Elt F)),
    binary main_v66 main_v67 main_v68 ((fun a b => concatenate S4000000x3x4 2 [⟨S4000000x3x3, a⟩, ⟨S4000000x3x1, b⟩] concatenates_S4000000x3x3_S4000000x3x1_S4000000x3x4_d2) : (⟨S4000000x3x3, .f32⟩ : BufTy).Contents (Elt F) → (⟨S4000000x3x1, .f32⟩ : BufTy).Contents (Elt F) → (⟨S4000000x3x4, .f32⟩ : BufTy).Contents (Elt F)),
    unary main_cst main_v69 (broadcastInDim S4000000x1x4 ![0, 1, 2] bcast_S1x1x4_S4000000x1x4_0_1_2 : (⟨S1x1x4, .f32⟩ : BufTy).Contents (Elt F) → (⟨S4000000x1x4, .f32⟩ : BufTy).Contents (Elt F)),
    binary main_v68 main_v69 main_v70 ((fun a b => concatenate S4000000x4x4 1 [⟨S4000000x3x4, a⟩, ⟨S4000000x1x4, b⟩] concatenates_S4000000x3x4_S4000000x1x4_S4000000x4x4_d1) : (⟨S4000000x3x4, .f32⟩ : BufTy).Contents (Elt F) → (⟨S4000000x1x4, .f32⟩ : BufTy).Contents (Elt F) → (⟨S4000000x4x4, .f32⟩ : BufTy).Contents (Elt F)) ]

/-- @main's operations, in order. -/
abbrev ops : List (HloOp τ sig (Elt F)) := opsA ++ (opsB ++ opsC)

/-- @main is that straight line: its two windows run in order, the helpers' bodies unfolded at their calls, are one
    chain of steps once sequencing is reassociated. -/
theorem main_eq (c : Dev nD) : main (F := F) c = seq ops := by
  simp only [main, main_part0, main_part1, fn_where.body, fn_where_0.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., unary_bufs_sub .., unary_bufs_sub .., reshape_bufs_sub .., unary_bufs_sub ..,
    reshape_bufs_sub .., unary_bufs_sub .., reshape_bufs_sub .., nullary_bufs_sub .., unary_bufs_sub .., unary_bufs_sub ..,
    unary_bufs_sub .., unary_bufs_sub .., unary_bufs_sub .., nary_bufs_sub .., unary_bufs_sub .., unary_bufs_sub ..,
    unary_bufs_sub .., unary_bufs_sub .., nary_bufs_sub .., unary_bufs_sub .., unary_bufs_sub .., unary_bufs_sub ..,
    unary_bufs_sub .., nary_bufs_sub .., unary_bufs_sub .., unary_bufs_sub .., unary_bufs_sub .., nary_bufs_sub ..⟩
theorem opsB_sub : (opsB : List (HloOp τ sig (Elt F))).Forall fun op => op.bufs ⊆ tcRefs τ sig :=
  ⟨binary_bufs_sub .., nullary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., nullary_bufs_sub .., unary_bufs_sub .., binary_bufs_sub .., unary_bufs_sub ..,
    binary_bufs_sub .., ternary_bufs_sub .., nullary_bufs_sub .., unary_bufs_sub .., binary_bufs_sub .., nullary_bufs_sub ..,
    unary_bufs_sub .., binary_bufs_sub .., unary_bufs_sub .., nullary_bufs_sub .., unary_bufs_sub .., binary_bufs_sub ..,
    binary_bufs_sub .., ternary_bufs_sub ..⟩
theorem opsC_sub : (opsC : List (HloOp τ sig (Elt F))).Forall fun op => op.bufs ⊆ tcRefs τ sig :=
  ⟨binary_bufs_sub .., nullary_bufs_sub .., nullary_bufs_sub .., nullary_bufs_sub .., unary_bufs_sub .., binary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., binary_bufs_sub .., unary_bufs_sub .., binary_bufs_sub ..⟩

/-- Every operation touches tensor values of @main only. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp opsA_sub op h, List.forall_iff_forall_mem.mp opsB_sub op h,
      List.forall_iff_forall_mem.mp opsC_sub op h]

/-- From any memory with zero counters every weakly fair execution of @main terminates, and every final state has each
    buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/-
  The reference's result as a composition of named stages, each one whole-array function of its operands.

  From the argument x [B, 6]: w = x[:, 0:3] and t = x[:, 3:6]; the three columns of w; K [B, 3, 3] stacked from the
  rows [0, −wz, wy], [wz, 0, −wx], [−wy, wx, 0]; θ² = 0 + Σₖ wₖ·wₖ; the mask θ² < ε, the guarded θ² and its root θ; the
  coefficients A and B; K·K; the identity matrix; R = (I + A·K) + B·(K·K); and the result, R beside t above the row
  [0, 0, 0, 1]. `refOut` is their composition: one function of the argument array.
-/
import proofs.«127277_j31421980737562_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-! ## The slices of the argument, and the last row -/

/-- w = x[:, 0:3], the rotation vectors -/
def wv (x : FVec Ideal S4000000x6 .f32) : FVec Ideal S4000000x3 .f32 :=
  extractStridedSlice S4000000x3 ![0, 0] x slices_S4000000x6_S4000000x3_0_0

/-- t = x[:, 3:6], the translations -/
def tv (x : FVec Ideal S4000000x6 .f32) : FVec Ideal S4000000x3 .f32 :=
  extractStridedSlice S4000000x3 ![0, 3] x slices_S4000000x6_S4000000x3_0_3

/-- the constant [[[0, 0, 0, 1]]] -/
def lastv : FVec Ideal S1x1x4 .f32 := fun i => FloatOps.ofBits .f32 (lit0 (S1x1x4.rowMajor i))

/-! ## K, the skew-symmetric matrix of w -/

/-- wx, as a vector over the batch -/
def col0 (w : FVec Ideal S4000000x3 .f32) : FVec Ideal S4000000 .f32 :=
  shapeCast S4000000 (extractStridedSlice S4000000x1 ![0, 0] w slices_S4000000x3_S4000000x1_0_0) shapeCasts_S4000000x1_S4000000

/-- wy -/
def col1 (w : FVec Ideal S4000000x3 .f32) : FVec Ideal S4000000 .f32 :=
  shapeCast S4000000 (extractStridedSlice S4000000x1 ![0, 1] w slices_S4000000x3_S4000000x1_0_1) shapeCasts_S4000000x1_S4000000

/-- wz -/
def col2 (w : FVec Ideal S4000000x3 .f32) : FVec Ideal S4000000 .f32 :=
  shapeCast S4000000 (extractStridedSlice S4000000x1 ![0, 2] w slices_S4000000x3_S4000000x1_0_2) shapeCasts_S4000000x1_S4000000

/-- the zero vector over the batch -/
def zerov : FVec Ideal S4000000 .f32 :=
  broadcastInDim S4000000 ![] bcast_S_S4000000 (constant (F := Ideal) S_ .f32 0x00000000#32)

/-- three batch vectors side by side: the array whose row b is [p b, q b, r b] -/
def rowv (p q r : FVec Ideal S4000000 .f32) : FVec Ideal S4000000x3 .f32 :=
  concatenate S4000000x3 1
    [⟨S4000000x1, broadcastInDim S4000000x1 ![0] bcast_S4000000_S4000000x1_0 p⟩,
     ⟨S4000000x1, broadcastInDim S4000000x1 ![0] bcast_S4000000_S4000000x1_0 q⟩,
     ⟨S4000000x1, broadcastInDim S4000000x1 ![0] bcast_S4000000_S4000000x1_0 r⟩]
    concatenates_S4000000x1_S4000000x1_S4000000x1_S4000000x3_d1

/-- three [B, 3] arrays stacked as the rows of a [B, 3, 3] array -/
def stackv (r0 r1 r2 : FVec Ideal S4000000x3 .f32) : FVec Ideal S4000000x3x3 .f32 :=
  concatenate S4000000x3x3 1
    [⟨S4000000x1x3, broadcastInDim S4000000x1x3 ![0, 2] bcast_S4000000x3_S4000000x1x3_0_2 r0⟩,
     ⟨S4000000x1x3, broadcastInDim S4000000x1x3 ![0, 2] bcast_S4000000x3_S4000000x1x3_0_2 r1⟩,
     ⟨S4000000x1x3, broadcastInDim S4000000x1x3 ![0, 2] bcast_S4000000x3_S4000000x1x3_0_2 r2⟩]
    concatenates_S4000000x1x3_S4000000x1x3_S4000000x1x3_S4000000x3x3_d1

/-- K: rows [0, −wz, wy], [wz, 0, −wx], [−wy, wx, 0] -/
def kmat (w : FVec Ideal S4000000x3 .f32) : FVec Ideal S4000000x3x3 .f32 :=
  stackv (rowv zerov (Host.negf (col2 w)) (col1 w))
    (rowv (col2 w) zerov (Host.negf (col0 w)))
    (rowv (Host.negf (col1 w)) (col0 w) zerov)

/-! ## θ² and the coefficients -/

/-- θ² = 0 + Σₖ wₖ·wₖ -/
def theta2v (w : FVec Ideal S4000000x3 .f32) : FVec Ideal S4000000 .f32 :=
  Host.reduceAdd (F := Ideal) (mulf w w) (constant (F := Ideal) S_ .f32 0x00000000#32) reducesTo_S4000000x3_S4000000_d1 h_S_

/-- the mask θ² < ε -/
def smallv (t2 : FVec Ideal S4000000 .f32) : IVec S4000000 1 :=
  cmpf .olt t2 (broadcastInDim S4000000 ![] bcast_S_S4000000 (constant (F := Ideal) S_ .f32 0x322BCC77#32))

/-- the guarded θ²: 1 under the mask -/
def safev (t2 : FVec Ideal S4000000 .f32) : FVec Ideal S4000000 .f32 :=
  select (smallv t2) (broadcastInDim S4000000 ![] bcast_S_S4000000 (constant (F := Ideal) S_ .f32 0x3F800000#32)) t2

/-- θ, the root of the guarded θ² -/
def thetav (t2 : FVec Ideal S4000000 .f32) : FVec Ideal S4000000 .f32 := Host.sqrt (F := Ideal) (safev t2)

/-- A = sin θ / θ, or 1 − θ²/6 under the mask -/
def coefAv (t2 : FVec Ideal S4000000 .f32) : FVec Ideal S4000000 .f32 :=
  select (smallv t2)
    (subf (broadcastInDim S4000000 ![] bcast_S_S4000000 (constant (F := Ideal) S_ .f32 0x3F800000#32))
      (Host.divf t2 (broadcastInDim S4000000 ![] bcast_S_S4000000 (constant (F := Ideal) S_ .f32 0x40C00000#32))))
    (Host.divf (Host.sin (thetav t2)) (thetav t2))

/-- B = (1 − cos θ) / θ², or 1/2 − θ²/24 under the mask -/
def coefBv (t2 : FVec Ideal S4000000 .f32) : FVec Ideal S4000000 .f32 :=
  select (smallv t2)
    (subf (broadcastInDim S4000000 ![] bcast_S_S4000000 (constant (F := Ideal) S_ .f32 0x3F000000#32))
      (Host.divf t2 (broadcastInDim S4000000 ![] bcast_S_S4000000 (constant (F := Ideal) S_ .f32 0x41C00000#32))))
    (Host.divf (subf (broadcastInDim S4000000 ![] bcast_S_S4000000 (constant (F := Ideal) S_ .f32 0x3F800000#32)) (Host.cos (thetav t2))) t2)

/-! ## The rotation and the result -/

/-- K·K, batch by batch -/
def dotv (K : FVec Ideal S4000000x3x3 .f32) : FVec Ideal S4000000x3x3 .f32 :=
  Host.dotGeneral (F := Ideal) dot_S4000000x3x3_S4000000x3x3_S4000000x3x3_2_1_1_2_0_0 none K K

/-- the 3×3 identity: the bit "row index = column index", as a number -/
def eyev : FVec Ideal S3x3 .f32 :=
  uitofp (F := Ideal) .f32
    (cmpi .eq (addi (iotaInDim S3x3 32 0) (broadcastInDim S3x3 ![] bcast_S_S3x3 (constantI S_ 32 0#32))) (iotaInDim S3x3 32 1))

/-- the identity, repeated over the batch -/
def eyeb : FVec Ideal S4000000x3x3 .f32 :=
  broadcastInDim S4000000x3x3 ![0, 1, 2] bcast_S1x3x3_S4000000x3x3_0_1_2 (broadcastInDim S1x3x3 ![1, 2] bcast_S3x3_S1x3x3_1_2 eyev)

/-- a batch vector repeated over the nine entries of each row's matrix -/
def spreadv (a : FVec Ideal S4000000 .f32) : FVec Ideal S4000000x3x3 .f32 :=
  broadcastInDim S4000000x3x3 ![0, 1, 2] bcast_S4000000x1x1_S4000000x3x3_0_1_2
    (broadcastInDim S4000000x1x1 ![0] bcast_S4000000_S4000000x1x1_0 a)

/-- R = (I + A·K) + B·(K·K) -/
def rotv (K : FVec Ideal S4000000x3x3 .f32) (A Bc : FVec Ideal S4000000 .f32) : FVec Ideal S4000000x3x3 .f32 :=
  addf (addf eyeb (mulf (spreadv A) K)) (mulf (spreadv Bc) (dotv K))

/-- R beside t (as a column), above the last row -/
def outv (K : FVec Ideal S4000000x3x3 .f32) (A Bc : FVec Ideal S4000000 .f32) (t : FVec Ideal S4000000x3 .f32)
    (c : FVec Ideal S1x1x4 .f32) : FVec Ideal S4000000x4x4 .f32 :=
  concatenate S4000000x4x4 1
    [⟨S4000000x3x4, concatenate S4000000x3x4 2
        [⟨S4000000x3x3, rotv K A Bc⟩,
         ⟨S4000000x3x1, broadcastInDim S4000000x3x1 ![0, 1] bcast_S4000000x3_S4000000x3x1_0_1 t⟩]
        concatenates_S4000000x3x3_S4000000x3x1_S4000000x3x4_d2⟩,
     ⟨S4000000x1x4, broadcastInDim S4000000x1x4 ![0, 1, 2] bcast_S1x1x4_S4000000x1x4_0_1_2 c⟩]
    concatenates_S4000000x3x4_S4000000x1x4_S4000000x4x4_d1

/-- the reference's result array as one function of its argument array -/
def refOut (x : FVec Ideal S4000000x6 .f32) : FVec Ideal S4000000x4x4 .f32 :=
  outv (kmat (wv x)) (coefAv (theta2v (wv x))) (coefBv (theta2v (wv x))) (tv x) lastv

end Cert.ReferenceIdeal.RefValue

end
-- ==== Proof.RefAfterA.lean ====
/-
  What the first stretch of the reference leaves: from any contents W of the buffers, after the thirty operations of
  `opsA` the slice buffers hold w and t of the argument, the stacked buffer holds K of w, the constant's buffer the last
  row, and the argument is as it was. Each operation's result is read at its own buffer and passed over at every other.
-/
import proofs.«127277_j31421980737562_2_alg».proof.Proof.RefOps
import proofs.«127277_j31421980737562_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

/-- the stacked matrix is K of the argument's first three columns -/
theorem afterA_v27 (W : Valuation τ sig (Elt Ideal)) :
    after opsA W (no_index (Proc.devRef .tc main_v27)) = kmat (wv (W (Proc.devRef .tc main_arg0))) := by
  simp only [opsA]
  after_results_simp
  try dsimp only [Matrix.cons_val]
  try after_results_simp
  try dsimp only [Matrix.cons_val]
  try after_results_simp
  rfl

/-- w -/
theorem afterA_v0 (W : Valuation τ sig (Elt Ideal)) :
    after opsA W (no_index (Proc.devRef .tc main_v0)) = wv (W (Proc.devRef .tc main_arg0)) := by
  simp only [opsA]
  after_results_simp
  rfl

/-- t -/
theorem afterA_v1 (W : Valuation τ sig (Elt Ideal)) :
    after opsA W (no_index (Proc.devRef .tc main_v1)) = tv (W (Proc.devRef .tc main_arg0)) := by
  simp only [opsA]
  after_results_simp
  rfl

/-- the last row's constant -/
theorem afterA_cst (W : Valuation τ sig (Elt Ideal)) :
    after opsA W (no_index (Proc.devRef .tc main_cst)) = lastv := by
  simp only [opsA]
  after_results_simp
  rfl

/-- the argument is not written -/
theorem afterA_arg0 (W : Valuation τ sig (Elt Ideal)) :
    after opsA W (no_index (Proc.devRef .tc main_arg0)) = W (Proc.devRef .tc main_arg0) := by
  simp only [opsA]
  after_results_simp

end Cert.ReferenceIdeal.RefValue

end
-- ==== Proof.RefAfterB.lean ====
/-
  What the second stretch of the reference leaves: from any contents W of the buffers, after the thirty-two operations
  of `opsB` the two coefficient buffers hold A and B of θ² of the rotation vectors W holds, and the buffers of K, of t, of
  the last row and of the argument are as they were.
-/
import proofs.«127277_j31421980737562_2_alg».proof.Proof.RefOps
import proofs.«127277_j31421980737562_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

/-- A, of θ² of the rotation vectors -/
theorem afterB_v40 (W : Valuation τ sig (Elt Ideal)) :
    after opsB W (no_index (Proc.devRef .tc main_v40)) = coefAv (theta2v (W (Proc.devRef .tc main_v0))) := by
  simp only [opsB]
  after_results_simp
  rfl

/-- B, of θ² of the rotation vectors -/
theorem afterB_v49 (W : Valuation τ sig (Elt Ideal)) :
    after opsB W (no_index (Proc.devRef .tc main_v49)) = coefBv (theta2v (W (Proc.devRef .tc main_v0))) := by
  simp only [opsB]
  after_results_simp
  rfl

/-- K is not written -/
theorem afterB_v27 (W : Valuation τ sig (Elt Ideal)) :
    after opsB W (no_index (Proc.devRef .tc main_v27)) = W (Proc.devRef .tc main_v27) := by
  simp only [opsB]
  after_results_simp

/-- t is not written -/
theorem afterB_v1 (W : Valuation τ sig (Elt Ideal)) :
    after opsB W (no_index (Proc.devRef .tc main_v1)) = W (Proc.devRef .tc main_v1) := by
  simp only [opsB]
  after_results_simp

/-- the last row's constant is not written -/
theorem afterB_cst (W : Valuation τ sig (Elt Ideal)) :
    after opsB W (no_index (Proc.devRef .tc main_cst)) = W (Proc.devRef .tc main_cst) := by
  simp only [opsB]
  after_results_simp

/-- the argument is not written -/
theorem afterB_arg0 (W : Valuation τ sig (Elt Ideal)) :
    after opsB W (no_index (Proc.devRef .tc main_arg0)) = W (Proc.devRef .tc main_arg0) := by
  simp only [opsB]
  after_results_simp

end Cert.ReferenceIdeal.RefValue

end
-- ==== Proof.RefAfterC.lean ====
/-
  What the last stretch of the reference leaves: from any contents W of the buffers, after the twenty-two operations
  of `opsC` the result buffer holds the 4×4 matrices assembled from the K, A, B, t and last row that W holds, and the
  argument is as it was.
-/
import proofs.«127277_j31421980737562_2_alg».proof.Proof.RefOps
import proofs.«127277_j31421980737562_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

/-- the result: R = (I + A·K) + B·(K·K) beside t, above the last row -/
theorem afterC_v70 (W : Valuation τ sig (Elt Ideal)) :
    after opsC W (no_index (Proc.devRef .tc main_v70))
      = outv (W (Proc.devRef .tc main_v27)) (W (Proc.devRef .tc main_v40)) (W (Proc.devRef .tc main_v49))
          (W (Proc.devRef .tc main_v1)) (W (Proc.devRef .tc main_cst)) := by
  simp only [opsC]
  after_results_simp
  rfl

/-- the argument is not written -/
theorem afterC_arg0 (W : Valuation τ sig (Elt Ideal)) :
    after opsC W (no_index (Proc.devRef .tc main_arg0)) = W (Proc.devRef .tc main_arg0) := by
  simp only [opsC]
  after_results_simp

end Cert.ReferenceIdeal.RefValue

end
-- ==== Proof.RefRun.lean ====
/-
  The reference's run, with its result named.

  The three stretches compose: the fold of all the operations is the last stretch's fold of the second's of the first's.
  Read at the result buffer that is `refOut` of the argument array as the launch memory holds it, and at the argument's
  buffer it is the argument itself. With the run of the straight line this is the reference's half of the comparison:
  every weakly fair execution terminates with the result buffer at `refOut` of the argument and the argument unchanged.
-/
import proofs.«127277_j31421980737562_2_alg».proof.Proof.RefAfterA
import proofs.«127277_j31421980737562_2_alg».proof.Proof.RefAfterB
import proofs.«127277_j31421980737562_2_alg».proof.Proof.RefAfterC

noncomputable section

namespace Cert.ReferenceIdeal.RefValue

open Cert.ReferenceIdeal Cert.ReferenceIdeal.Gen Idealize.ShloMosaic Idealize.ShloMosaic.TcCoe Idealize.SL.Sem Idealize.ShloMosaic.StableHlo

/-- A line run in two parts: the second part's fold over the first's. -/
theorem after_app (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- After the whole line the result buffer holds `refOut` of what the argument's buffer held. -/
theorem after_out (W : Valuation τ sig (Elt Ideal)) :
    after ops W (Proc.devRef .tc main_v70) = refOut (W (Proc.devRef .tc main_arg0)) := by
  unfold refOut
  rw [show (ops : List (HloOp τ sig (Elt Ideal))) = opsA ++ (opsB ++ opsC) from rfl, after_app, after_app]
  rw [afterC_v70, afterB_v27, afterB_v40, afterB_v49, afterB_v1, afterB_cst, afterA_v27, afterA_v0, afterA_v1, afterA_cst]

/-- After the whole line the argument's buffer holds what it held. -/
theorem after_arg (W : Valuation τ sig (Elt Ideal)) :
    after ops W (Proc.devRef .tc main_arg0) = W (Proc.devRef .tc main_arg0) := by
  rw [show (ops : List (HloOp τ sig (Elt Ideal))) = opsA ++ (opsB ++ opsC) from rfl, after_app, after_app]
  rw [afterC_arg0, afterB_arg0, afterA_arg0]

/-- From any memory with zero counters every weakly fair execution of the reference terminates, with the result at
    `refOut` of the argument array of the launch memory, and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v70) = refOut (m ((c.tc : Thread nD τ).loc main_arg0))
      ∧ r.2.mem ((c.tc : Thread nD τ).loc main_arg0) = m ((c.tc : Thread nD τ).loc main_arg0)) :=
  (θ_run defs _ _).mono (fun _ h c => ⟨(h c main_v70).trans (after_out (launchContents m c)),
      (h c main_arg0).trans (after_arg (launchContents m c))⟩)
    (run_all m ρ)

end Cert.ReferenceIdeal.RefValue

end
-- ==== Proof.RefLayout.lean ====
/-
  The reference's layout stages, read at an index.

  Every stage here only moves numbers: a slice reads the operand at the index shifted by the offsets; a reshape
  [B, 1] → [B] reads the index with the same row-major position; a broadcast reads the operand at the coordinates
  its axes map to, and at 0 on a unit axis; a concatenation reads the piece whose span along the axis holds the
  coordinate, at the coordinate less the extents before it. So entry (b, r, c) of the result is entry (r, c) of R at
  row b when r, c < 3, the translation's r-th entry when r < 3 = c, and the constant last row's c-th entry when
  r = 3; entry (b, i, j) of three stacked arrays is the i-th array at (b, j); entry (b, k) of three batch vectors
  side by side is the k-th at b; and a broadcast over the matrix entries reads the batch vector at b (or the 3×3
  matrix at (i, j)). The batch coordinate b stays a variable throughout.
-/
import proofs.«127277_j31421980737562_2_alg».proof.Proof.RefStages
import proofs.«127277_j31421980737562_2_alg».proof.Proof.Rodrigues
import Idealize.ShloMosaic.Lib.Pipeline.Value
import Idealize.ShloMosaic.Lib.ValueIdx
import Idealize.ShloMosaic.Lib.ValueLayout

noncomputable section

namespace Cert.ReferenceIdeal.RefValue

open Idealize.ShloMosaic Idealize.ShloMosaic.ValueIdx Cert.ReferenceIdeal

local notation "V3" => FVec Ideal S4000000x3 FTy.f32
local notation "V1" => FVec Ideal S4000000 FTy.f32
local notation "M33" => FVec Ideal S4000000x3x3 FTy.f32

/-! ## The result: R beside t, above the last row -/

/-- Above the last row and left of the last column the result is R: both concatenations read their first piece. -/
theorem outv_apply_rot (K : M33) (A Bc : V1) (t : V3) (l : FVec Ideal S1x1x4 .f32) (b : Fin 4000000) (r c : Fin 4)
    (hr : r.val < 3) (hc : c.val < 3) :
    outv K A Bc t l (ix3 b r c) = rotv K A Bc (ix3 b (⟨r.val, hr⟩ : Fin 3) (⟨c.val, hc⟩ : Fin 3)) := by
  unfold outv
  refine (concatenate_pair_apply_left (t := S4000000x4x4) (s₁ := S4000000x3x4) (s₂ := S4000000x1x4) 1 _ _ _ (ix3 b r c) rfl (ix3 b (⟨r.val, hr⟩ : Fin 3) c) (fun a => by
    match a with
    | ⟨0, _⟩ => rfl
    | ⟨1, _⟩ => rfl
    | ⟨2, _⟩ => rfl)).trans ?_
  exact concatenate_pair_apply_left (t := S4000000x3x4) (s₁ := S4000000x3x3) (s₂ := S4000000x3x1) 2 _ _ _ (ix3 b (⟨r.val, hr⟩ : Fin 3) c) rfl
    (ix3 b (⟨r.val, hr⟩ : Fin 3) (⟨c.val, hc⟩ : Fin 3)) (fun a => by
    match a with
    | ⟨0, _⟩ => rfl
    | ⟨1, _⟩ => rfl
    | ⟨2, _⟩ => rfl)

/-- Above the last row, in the last column, the result is the translation's entry for that row: the inner
    concatenation reads its second piece at column 3 − 3 = 0, a broadcast of t along a new unit axis. -/
theorem outv_apply_t (K : M33) (A Bc : V1) (t : V3) (l : FVec Ideal S1x1x4 .f32) (b : Fin 4000000) (r c : Fin 4)
    (hr : r.val < 3) (hc : ¬ c.val < 3) :
    outv K A Bc t l (ix3 b r c) = t (ix2 b (⟨r.val, hr⟩ : Fin 3)) := by
  have hc3 : c.val = 3 := by have := c.isLt; omega
  unfold outv
  refine (concatenate_pair_apply_left (t := S4000000x4x4) (s₁ := S4000000x3x4) (s₂ := S4000000x1x4) 1 _ _ _ (ix3 b r c) rfl (ix3 b (⟨r.val, hr⟩ : Fin 3) c) (fun a => by
    match a with
    | ⟨0, _⟩ => rfl
    | ⟨1, _⟩ => rfl
    | ⟨2, _⟩ => rfl)).trans ?_
  refine (concatenate_pair_apply_right (t := S4000000x3x4) (s₁ := S4000000x3x3) (s₂ := S4000000x3x1) 2 _ _ _ (ix3 b (⟨r.val, hr⟩ : Fin 3) c) rfl rfl
    (ix3 b (⟨r.val, hr⟩ : Fin 3) (0 : Fin 1)) (fun a ha => by
    match a with
    | ⟨0, _⟩ => rfl
    | ⟨1, _⟩ => rfl
    | ⟨2, _⟩ => exact absurd (Fin.ext rfl) ha) (by show 0 + 3 = c.val; omega)).trans ?_
  exact broadcastInDim_apply _ _ t _ (ix2 b (⟨r.val, hr⟩ : Fin 3)) (fun a => by
    match a with
    | ⟨0, _⟩ => rfl
    | ⟨1, _⟩ => rfl)

/-- In the last row the result is the constant row, whatever the batch: the outer concatenation reads its second
    piece at row 3 − 3 = 0, a broadcast of the [1, 1, 4] constant over the batch. -/
theorem outv_apply_last (K : M33) (A Bc : V1) (t : V3) (l : FVec Ideal S1x1x4 .f32) (b : Fin 4000000) (r c : Fin 4)
    (hr : ¬ r.val < 3) :
    outv K A Bc t l (ix3 b r c) = l (ix3 (0 : Fin 1) (0 : Fin 1) c) := by
  have hr3 : r.val = 3 := by have := r.isLt; omega
  unfold outv
  refine (concatenate_pair_apply_right (t := S4000000x4x4) (s₁ := S4000000x3x4) (s₂ := S4000000x1x4) 1 _ _ _ (ix3 b r c) rfl rfl
    (ix3 b (0 : Fin 1) c) (fun a ha => by
    match a with
    | ⟨0, _⟩ => rfl
    | ⟨1, _⟩ => exact absurd (Fin.ext rfl) ha
    | ⟨2, _⟩ => rfl) (by show 0 + 3 = r.val; omega)).trans ?_
  exact broadcastInDim_apply _ _ l _ (ix3 (0 : Fin 1) (0 : Fin 1) c) (fun a => by
    match a with
    | ⟨0, _⟩ => rfl
    | ⟨1, _⟩ => rfl
    | ⟨2, _⟩ => rfl)

/-! ## Stacking and placing side by side -/

/-- Row i of three stacked [B, 3] arrays is the i-th of them: the pieces before piece i take up i rows of one. -/
theorem stackv_apply (r0 r1 r2 : V3) (b : Fin 4000000) (i j : Fin 3) :
    stackv r0 r1 r2 (ix3 b i j) = (![r0, r1, r2] i) (ix2 b j) := by
  unfold stackv
  obtain ⟨k, hk⟩ := i
  interval_cases k
  · refine (concatenate_apply_piece 1 _ _ (ix3 b (⟨0, hk⟩ : Fin 3) j) 0 (by show 0 < 3; omega) S4000000x1x3 _ rfl rfl 0 rfl
      (ix3 b (0 : Fin 1) j) (fun a ha => by
        match a with
        | ⟨0, _⟩ => rfl
        | ⟨1, _⟩ => exact absurd (Fin.ext rfl) ha
        | ⟨2, _⟩ => rfl) rfl).trans ?_
    exact broadcastInDim_apply _ _ r0 _ (ix2 b j) (fun a => by
      match a with
      | ⟨0, _⟩ => rfl
      | ⟨1, _⟩ => rfl)
  · refine (concatenate_apply_piece 1 _ _ (ix3 b (⟨1, hk⟩ : Fin 3) j) 1 (by show 1 < 3; omega) S4000000x1x3 _ rfl rfl 1 rfl
      (ix3 b (0 : Fin 1) j) (fun a ha => by
        match a with
        | ⟨0, _⟩ => rfl
        | ⟨1, _⟩ => exact absurd (Fin.ext rfl) ha
        | ⟨2, _⟩ => rfl) rfl).trans ?_
    exact broadcastInDim_apply _ _ r1 _ (ix2 b j) (fun a => by
      match a with
      | ⟨0, _⟩ => rfl
      | ⟨1, _⟩ => rfl)
  · refine (concatenate_apply_piece 1 _ _ (ix3 b (⟨2, hk⟩ : Fin 3) j) 2 (by show 2 < 3; omega) S4000000x1x3 _ rfl rfl 2 rfl
      (ix3 b (0 : Fin 1) j) (fun a ha => by
        match a with
        | ⟨0, _⟩ => rfl
        | ⟨1, _⟩ => exact absurd (Fin.ext rfl) ha
        | ⟨2, _⟩ => rfl) rfl).trans ?_
    exact broadcastInDim_apply _ _ r2 _ (ix2 b j) (fun a => by
      match a with
      | ⟨0, _⟩ => rfl
      | ⟨1, _⟩ => rfl)

/-- Column k of three batch vectors placed side by side is the k-th of them. -/
theorem rowv_apply (p q r : V1) (b : Fin 4000000) (k : Fin 3) :
    rowv p q r (ix2 b k) = (![p, q, r] k) (ix1 b) := by
  unfold rowv
  obtain ⟨k, hk⟩ := k
  interval_cases k
  · refine (concatenate_apply_piece 1 _ _ (ix2 b (⟨0, hk⟩ : Fin 3)) 0 (by show 0 < 3; omega) S4000000x1 _ rfl rfl 0 rfl
      (ix2 b (0 : Fin 1)) (fun a ha => by
        match a with
        | ⟨0, _⟩ => rfl
        | ⟨1, _⟩ => exact absurd (Fin.ext rfl) ha) rfl).trans ?_
    exact broadcastInDim_apply _ _ p _ (ix1 b) (fun a => by
      match a with
      | ⟨0, _⟩ => rfl)
  · refine (concatenate_apply_piece 1 _ _ (ix2 b (⟨1, hk⟩ : Fin 3)) 1 (by show 1 < 3; omega) S4000000x1 _ rfl rfl 1 rfl
      (ix2 b (0 : Fin 1)) (fun a ha => by
        match a with
        | ⟨0, _⟩ => rfl
        | ⟨1, _⟩ => exact absurd (Fin.ext rfl) ha) rfl).trans ?_
    exact broadcastInDim_apply _ _ q _ (ix1 b) (fun a => by
      match a with
      | ⟨0, _⟩ => rfl)
  · refine (concatenate_apply_piece 1 _ _ (ix2 b (⟨2, hk⟩ : Fin 3)) 2 (by show 2 < 3; omega) S4000000x1 _ rfl rfl 2 rfl
      (ix2 b (0 : Fin 1)) (fun a ha => by
        match a with
        | ⟨0, _⟩ => rfl
        | ⟨1, _⟩ => exact absurd (Fin.ext rfl) ha) rfl).trans ?_
    exact broadcastInDim_apply _ _ r _ (ix1 b) (fun a => by
      match a with
      | ⟨0, _⟩ => rfl)

/-! ## Slices and the columns of w -/

/-- A [B, 1] array viewed as [B] reads (b, 0) at b: both have row-major position b. -/
theorem cast_col_apply (u : FVec Ideal S4000000x1 .f32) (b : Fin 4000000) :
    shapeCast S4000000 u Gen.shapeCasts_S4000000x1_S4000000 (ix1 b) = u (ix2 b (0 : Fin 1)) :=
  shapeCast_apply u _ (ix1 b) (ix2 b (0 : Fin 1)) (by
    rw [Shape.rowMajor_val_two, Shape.rowMajor_val_one]
    show b.val * 1 + 0 = b.val
    omega)

/-- The first column of w, as a batch vector. -/
theorem col0_apply (w : V3) (b : Fin 4000000) : col0 w (ix1 b) = w (ix2 b (0 : Fin 3)) := by
  unfold col0
  refine (cast_col_apply _ b).trans ?_
  exact slice2_axis1_apply 0 w _ b (0 : Fin 1) (0 : Fin 3) rfl

/-- The second column of w. -/
theorem col1_apply (w : V3) (b : Fin 4000000) : col1 w (ix1 b) = w (ix2 b (1 : Fin 3)) := by
  unfold col1
  refine (cast_col_apply _ b).trans ?_
  exact slice2_axis1_apply 1 w _ b (0 : Fin 1) (1 : Fin 3) rfl

/-- The third column of w. -/
theorem col2_apply (w : V3) (b : Fin 4000000) : col2 w (ix1 b) = w (ix2 b (2 : Fin 3)) := by
  unfold col2
  refine (cast_col_apply _ b).trans ?_
  exact slice2_axis1_apply 2 w _ b (0 : Fin 1) (2 : Fin 3) rfl

/-- w is columns 0, 1, 2 of the argument. -/
theorem wv_apply (x : FVec Ideal S4000000x6 .f32) (b : Fin 4000000) (k : Fin 3) :
    wv x (ix2 b k) = x (ix2 b (⟨k.val, by omega⟩ : Fin 6)) := by
  unfold wv
  exact slice2_axis1_apply 0 x _ b k (⟨k.val, by omega⟩ : Fin 6) (Nat.zero_add _).symm

/-- t is columns 3, 4, 5 of the argument. -/
theorem tv_apply (x : FVec Ideal S4000000x6 .f32) (b : Fin 4000000) (k : Fin 3) :
    tv x (ix2 b k) = x (ix2 b (⟨3 + k.val, by omega⟩ : Fin 6)) := by
  unfold tv
  exact slice2_axis1_apply 3 x _ b k (⟨3 + k.val, by omega⟩ : Fin 6) rfl

/-! ## Broadcasts -/

/-- A batch vector spread over each row's nine matrix entries reads the vector at the batch coordinate. -/
theorem spreadv_apply (a : V1) (b : Fin 4000000) (i j : Fin 3) : spreadv a (ix3 b i j) = a (ix1 b) := by
  unfold spreadv
  refine (broadcastInDim_apply _ _ _ (ix3 b i j) (ix3 b (0 : Fin 1) (0 : Fin 1)) (fun d => by
    match d with
    | ⟨0, _⟩ => rfl
    | ⟨1, _⟩ => rfl
    | ⟨2, _⟩ => rfl)).trans ?_
  exact broadcastInDim_apply _ _ a _ (ix1 b) (fun d => by
    match d with
    | ⟨0, _⟩ => rfl)

/-- The identity repeated over the batch reads the 3×3 identity at (i, j). -/
theorem eyeb_apply (b : Fin 4000000) (i j : Fin 3) : eyeb (ix3 b i j) = eyev (ix2 i j) := by
  unfold eyeb
  refine (broadcastInDim_apply _ _ _ (ix3 b i j) (ix3 (0 : Fin 1) i j) (fun d => by
    match d with
    | ⟨0, _⟩ => rfl
    | ⟨1, _⟩ => rfl
    | ⟨2, _⟩ => rfl)).trans ?_
  exact broadcastInDim_apply _ _ eyev _ (ix2 i j) (fun d => by
    match d with
    | ⟨0, _⟩ => rfl
    | ⟨1, _⟩ => rfl)

/-- The zero vector over the batch is the word of +0.0 at every b. -/
theorem zerov_apply (b : Fin 4000000) : zerov (ix1 b) = Cert.So3.zero := by
  unfold zerov
  refine (broadcastInDim_apply _ _ _ (ix1 b) ix0 (fun d => d.elim0)).trans ?_
  rfl

end Cert.ReferenceIdeal.RefValue

end
-- ==== Proof.RefRead.lean ====
/-
  The reference's stages read at an index.

  Everything here is per batch row b: θ² at b is the initial zero plus the sum over the three columns of the
  squares of w's entries in row b; the batched product K·K at (b, i, j) is the sum over k of K(b, i, k)·K(b, k, j);
  the identity's entry (i, j) is the bit "i = j" as a number; the mask, the guarded θ², θ and the two coefficients
  are pointwise in b; the constant last row is [0, 0, 0, 1].
-/
import proofs.«127277_j31421980737562_2_alg».proof.Proof.RefStages
import proofs.«127277_j31421980737562_2_alg».proof.Proof.RefLayout
import proofs.«127277_j31421980737562_2_alg».proof.Proof.Rodrigues
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.ValueIdx Cert.ReferenceIdeal Cert.ReferenceIdeal.Gen

/-! ## θ² -/

/-- θ² at row b: the initial zero plus the sum of the squares of the row's three entries. -/
theorem theta2v_apply (w : FVec Ideal S4000000x3 .f32) (b : Fin 4000000) :
    theta2v w (ix1 b) = So3.zero + ∑ k : Fin 3, w (ix2 b k) * w (ix2 b k) := by
  have H : S4000000x3.Reduces [1] S4000000 := by decide
  unfold theta2v Host.reduceAdd
  rw [Ideal.hostReduceAdd_def]
  refine (Ideal.hostReduceAdd_single reducesTo_S4000000x3_S4000000_d1 H _ _ (ix1 b)).trans ?_
  refine congrArg (So3.zero + ·) (Finset.sum_congr rfl fun k _ => ?_)
  have e : H.lift (ix1 b) k = ix2 b k := by
    funext a; apply Fin.ext
    match a with
    | ⟨0, _⟩ => rfl
    | ⟨1, _⟩ => rfl
  show w (H.lift (ix1 b) k) * w (H.lift (ix1 b) k) = _
  rw [e]
  rfl

/-! ## K·K -/

/-- The batched product at (b, i, j): the sum over k of the left factor at (b, i, k) times the right at (b, k, j). -/
theorem dotv_apply (K : FVec Ideal S4000000x3x3 .f32) (b : Fin 4000000) (i j : Fin 3) :
    dotv K (ix3 b i j) = ∑ k : Fin 3, K (ix3 b i k) * K (ix3 b k j) := by
  unfold dotv Host.dotGeneral
  rw [Ideal.dotGeneral_apply]
  rw [← Equiv.sum_comp (contrEquiv1 dot_S4000000x3x3_S4000000x3x3_S4000000x3x3_2_1_1_2_0_0 3 rfl rfl).symm]
  refine Finset.sum_congr rfl fun k _ => ?_
  have hl : dot_S4000000x3x3_S4000000x3x3_S4000000x3x3_2_1_1_2_0_0.lhsIdx (ix3 b i j)
      ((contrEquiv1 dot_S4000000x3x3_S4000000x3x3_S4000000x3x3_2_1_1_2_0_0 3 rfl rfl).symm k) = ix3 b i k := by
    funext a; apply Fin.ext
    match a with
    | ⟨0, _⟩ => rfl
    | ⟨1, _⟩ => rfl
    | ⟨2, _⟩ =>
      exact (DotDims.lhsIdx_val_of_single _ rfl _ _).trans (contrEquiv1_symm_val _ 3 rfl rfl k)
  have hr : dot_S4000000x3x3_S4000000x3x3_S4000000x3x3_2_1_1_2_0_0.rhsIdx (ix3 b i j)
      ((contrEquiv1 dot_S4000000x3x3_S4000000x3x3_S4000000x3x3_2_1_1_2_0_0 3 rfl rfl).symm k) = ix3 b k j := by
    funext a; apply Fin.ext
    match a with
    | ⟨0, _⟩ => rfl
    | ⟨1, _⟩ =>
      exact (DotDims.rhsIdx_val_of_single _ rfl _ _).trans (contrEquiv1_symm_val _ 3 rfl rfl k)
    | ⟨2, _⟩ => rfl
  rw [hl, hr]

/-! ## The identity -/

/-- The identity's entry (i, j): the bit "i = j", as a number. -/
theorem eyev_apply (i j : Fin 3) : eyev (ix2 i j) = So3.eye i j := by
  have u1 : FloatOps.uitofp (F := Ideal) .f32 (1#1) = (1 : EReal) := by
    show (((1#1 : BitVec 1).toNat : ℝ) : EReal) = 1
    simp
  have u0 : FloatOps.uitofp (F := Ideal) .f32 (0#1) = (0 : EReal) := by
    show (((0#1 : BitVec 1).toNat : ℝ) : EReal) = 0
    simp
  fin_cases i <;> fin_cases j <;>
    simp [eyev, So3.eye, uitofp, cmpi, addi, iotaInDim, broadcastInDim, constantI, IntOp.cmpi, IntOp.addi, u0, u1]

/-! ## The mask, the guarded θ², θ and the coefficients, row by row -/

/-- The mask at row b compares that row's θ² with the threshold. -/
theorem smallv_apply (t2 : FVec Ideal S4000000 .f32) (b : Fin 4000000) :
    smallv t2 (ix1 b) = So3.small (t2 (ix1 b)) := by
  unfold smallv
  rw [cmpf_apply]
  rfl

/-- The guarded θ² at row b. -/
theorem safev_apply (t2 : FVec Ideal S4000000 .f32) (b : Fin 4000000) :
    safev t2 (ix1 b) = So3.safe (t2 (ix1 b)) := by
  unfold safev
  rw [select_apply, smallv_apply]
  rfl

/-- θ at row b. -/
theorem thetav_apply (t2 : FVec Ideal S4000000 .f32) (b : Fin 4000000) :
    thetav t2 (ix1 b) = So3.theta (t2 (ix1 b)) := by
  unfold thetav So3.theta
  show Ideal.sqrt (safev t2 (ix1 b)) = _
  rw [safev_apply]

/-- A at row b. -/
theorem coefAv_apply (t2 : FVec Ideal S4000000 .f32) (b : Fin 4000000) :
    coefAv t2 (ix1 b) = So3.coefA (t2 (ix1 b)) := by
  unfold coefAv So3.coefA
  show Scalar.select (smallv t2 (ix1 b)) (_ - Ideal.div (t2 (ix1 b)) _)
      (Ideal.div (Ideal.sin (thetav t2 (ix1 b))) (thetav t2 (ix1 b))) = _
  rw [smallv_apply, thetav_apply]
  rfl

/-- B at row b, the quotient taken by θ² itself. -/
theorem coefBv_apply (t2 : FVec Ideal S4000000 .f32) (b : Fin 4000000) :
    coefBv t2 (ix1 b) = So3.coefBraw (t2 (ix1 b)) := by
  unfold coefBv So3.coefBraw
  show Scalar.select (smallv t2 (ix1 b)) (_ - Ideal.div (t2 (ix1 b)) _)
      (Ideal.div (_ - Ideal.cos (thetav t2 (ix1 b))) (t2 (ix1 b))) = _
  rw [smallv_apply, thetav_apply]
  rfl

/-! ## The last row -/

/-- The constant row at column c: its row-major position is c, and the four words there are 0, 0, 0, 1. -/
theorem lastv_apply (c : Fin 4) : lastv (ix3 (0 : Fin 1) (0 : Fin 1) c) = So3.lastRow c := by
  have hpos : S1x1x4.rowMajor (ix3 (0 : Fin 1) (0 : Fin 1) c) = c := by
    apply Fin.ext
    rw [Shape.rowMajor_val_three]
    show (0 * 1 + 0) * 4 + c.val = c.val
    omega
  unfold lastv
  rw [hpos]
  fin_cases c <;> rfl

/-! ## K, θ² and R in terms of the argument's row -/

/-- K at (b, i, j) is the skew-symmetric matrix of row b's first three entries. -/
theorem kmat_apply (x : FVec Ideal S4000000x6 .f32) (b : Fin 4000000) (i j : Fin 3) :
    kmat (wv x) (ix3 b i j) = So3.skew (x (ix2 b (0 : Fin 6))) (x (ix2 b (1 : Fin 6))) (x (ix2 b (2 : Fin 6))) i j := by
  unfold kmat
  rw [stackv_apply]
  fin_cases i <;> fin_cases j <;>
    simp [So3.skew, rowv_apply, zerov_apply, col0_apply, col1_apply, col2_apply, wv_apply, Host.negf, negf] <;> rfl

/-- θ² of the sliced rows, at row b, in terms of the argument's row. -/
theorem theta2_row (x : FVec Ideal S4000000x6 .f32) (b : Fin 4000000) :
    theta2v (wv x) (ix1 b) = So3.th2R (x (ix2 b (0 : Fin 6))) (x (ix2 b (1 : Fin 6))) (x (ix2 b (2 : Fin 6))) := by
  rw [theta2v_apply]
  unfold So3.th2R
  refine congrArg (So3.zero + ·) (Finset.sum_congr rfl fun k _ => ?_)
  rw [wv_apply]
  fin_cases k <;> rfl

/-- R at (b, i, j) is the matrix spelling's rotation entry of row b. -/
theorem rot_apply (x : FVec Ideal S4000000x6 .f32) (b : Fin 4000000) (i j : Fin 3) :
    rotv (kmat (wv x)) (coefAv (theta2v (wv x))) (coefBv (theta2v (wv x))) (ix3 b i j) = So3.refRot (x (ix2 b (0 : Fin 6))) (x (ix2 b (1 : Fin 6))) (x (ix2 b (2 : Fin 6))) i j := by
  unfold rotv So3.refRot
  rw [addf_apply, addf_apply, mulf_apply, mulf_apply, eyeb_apply, eyev_apply, spreadv_apply, spreadv_apply,
    dotv_apply, coefAv_apply, coefBv_apply, theta2_row, kmat_apply]
  simp only [kmat_apply]

/-! ## The result -/

/-- The reference's result at (b, r, c) is entry (r, c) of row b's 4×4 matrix in the matrix spelling. -/
theorem refOut_apply (x : FVec Ideal S4000000x6 .f32) (b : Fin 4000000) (r c : Fin 4) :
    refOut x (ix3 b r c)
      = Cert.So3.refEntry (x (ix2 b (0 : Fin 6))) (x (ix2 b (1 : Fin 6))) (x (ix2 b (2 : Fin 6))) (x (ix2 b (3 : Fin 6))) (x (ix2 b (4 : Fin 6))) (x (ix2 b (5 : Fin 6))) r c := by
  unfold refOut So3.refEntry
  by_cases hr : r.val < 3
  · rw [dif_pos hr]
    by_cases hc : c.val < 3
    · rw [dif_pos hc, outv_apply_rot _ _ _ _ _ b r c hr hc]
      exact rot_apply x b ⟨r.val, hr⟩ ⟨c.val, hc⟩
    · rw [dif_neg hc, outv_apply_t _ _ _ _ _ b r c hr hc, tv_apply]
      obtain ⟨k, hk⟩ := r
      have hk3 : k < 3 := hr
      interval_cases k <;> rfl
  · rw [dif_neg hr, outv_apply_last _ _ _ _ _ b r c hr, lastv_apply]

end Cert.ReferenceIdeal.RefValue

end
-- ==== Proof.RodriguesLaw.lean ====
/-
  Rodrigues' rotation, expanded entry by entry, is the matrix form (I + A·K) + B·(K·K) at finite inputs.

  For real w = (wx, wy, wz) put θ² = wx² + wy² + wz². Both spellings of θ² denote this real, and at a real θ²
  both coefficients are reals: below the threshold they are the polynomials 1 − θ²/6 and 1/2 − θ²/24; at or
  above it θ² ≥ ε > 0, so the guarded θ² is θ² itself, θ = √θ² > 0, and sin θ / θ and (1 − cos θ) / θ² are
  quotients of reals by nonzero reals (and the two spellings of B divide by the same number). With real
  coefficients a, b each of the sixteen entries is a polynomial identity over ℝ: since K is skew with
  K² = w wᵀ − θ² I, the diagonal reads (1 − b θ²) + b wᵢ² = 1 + b (−wⱼ² − wₖ²), the off-diagonal
  b wᵢ wⱼ ± a wₖ on both sides, the fourth column is the translation and the last row is [0, 0, 0, 1].
  The diagonal identity cancels b θ² against b (wx² + wy² + wz²), which is where finiteness is used.
-/
import proofs.«127277_j31421980737562_2_alg».proof.Proof.Rodrigues

noncomputable section

namespace Cert.So3

open Idealize.ShloMosaic

/-! ## The six literals as reals -/

/-- the word of 1.0 denotes 1 -/
theorem ofBits_one : Ideal.ofBits .f32 0x3F800000#32 = ((1 : ℝ) : EReal) := by
  simp [Ideal.ofBits, Ideal.ieee, -EReal.coe_mul]; norm_num

/-- the word of 6.0 denotes 6 -/
theorem ofBits_six : Ideal.ofBits .f32 0x40C00000#32 = ((6 : ℝ) : EReal) := by
  simp [Ideal.ofBits, Ideal.ieee, -EReal.coe_mul]; norm_num

/-- the word of 24.0 denotes 24 -/
theorem ofBits_c24 : Ideal.ofBits .f32 0x41C00000#32 = ((24 : ℝ) : EReal) := by
  simp [Ideal.ofBits, Ideal.ieee, -EReal.coe_mul]; norm_num

/-- the word of 0.5 denotes 1/2 -/
theorem ofBits_half : Ideal.ofBits .f32 0x3F000000#32 = (((1 / 2 : ℝ)) : EReal) := by
  simp [Ideal.ofBits, Ideal.ieee, -EReal.coe_mul]; norm_num

/-- the word of +0.0 denotes 0 -/
theorem ofBits_zero : Ideal.ofBits .f32 0x00000000#32 = ((0 : ℝ) : EReal) := by
  simp [Ideal.ofBits, Ideal.ieee]

/-- the threshold's word denotes a positive real (11258999 · 2⁻⁵⁰); only its sign is used -/
theorem ofBits_eps : ∃ e : ℝ, 0 < e ∧ Ideal.ofBits .f32 0x322BCC77#32 = (e : EReal) := by
  refine ⟨(11258999 : ℝ) * (2 : ℝ) ^ (-50 : ℤ), by positivity, ?_⟩
  simp [Ideal.ofBits, Ideal.ieee, -EReal.coe_mul]

/-! ## Selection by a one-bit mask -/

theorem select_one {α : Type} (a b : α) : Scalar.select 1#1 a b = a := by
  simp [Scalar.select]

theorem select_zero {α : Type} (a b : α) : Scalar.select 0#1 a b = b := by
  simp [Scalar.select]

/-! ## The coefficients at a real θ² are reals, and the two spellings of B agree -/

/-- At a real θ² = t the coefficient A is a real a, and B, whether the quotient is taken by the guarded θ²
    or by θ² itself, is one real b: below the threshold both are the Taylor polynomials; otherwise
    t ≥ ε > 0, the guard leaves t alone, √t > 0, and each quotient is a product with a real reciprocal. -/
theorem coef_real (t : ℝ) : ∃ a b : ℝ, coefA (t : EReal) = (a : EReal) ∧
    coefBsafe (t : EReal) = (b : EReal) ∧ coefBraw (t : EReal) = (b : EReal) := by
  obtain ⟨e, hpos, he⟩ := ofBits_eps
  by_cases h : t < e
  · have hs : small (t : EReal) = 1#1 := by
      simp only [small, Ideal.cmp, eps, he, EReal.coe_lt_coe_iff, h, decide_true]; rfl
    refine ⟨1 - t * (1 / 6), 1 / 2 - t * (1 / 24), ?_, ?_, ?_⟩
    · simp only [coefA, hs, select_one, one, six, ofBits_one, ofBits_six,
        Ideal.div_coe (by norm_num : (6 : ℝ) ≠ 0)]
      norm_cast
    · simp only [coefBsafe, hs, select_one, half, c24, ofBits_half, ofBits_c24,
        Ideal.div_coe (by norm_num : (24 : ℝ) ≠ 0)]
      norm_cast
    · simp only [coefBraw, hs, select_one, half, c24, ofBits_half, ofBits_c24,
        Ideal.div_coe (by norm_num : (24 : ℝ) ≠ 0)]
      norm_cast
  · have hs : small (t : EReal) = 0#1 := by
      simp only [small, Ideal.cmp, eps, he, EReal.coe_lt_coe_iff, h, decide_false]; rfl
    have ht : 0 < t := lt_of_lt_of_le hpos (not_lt.mp h)
    have hsafe : safe (t : EReal) = (t : EReal) := by simp only [safe, hs, select_zero]
    have hth : theta (t : EReal) = ((Real.sqrt t : ℝ) : EReal) := by
      simp only [theta, hsafe, Ideal.sqrt_coe, if_neg (not_lt.mpr ht.le)]
    have hsq : Real.sqrt t ≠ 0 := (Real.sqrt_pos.mpr ht).ne'
    refine ⟨Real.sin (Real.sqrt t) * (1 / Real.sqrt t), (1 - Real.cos (Real.sqrt t)) * (1 / t), ?_, ?_, ?_⟩
    · simp only [coefA, hs, select_zero, hth, Ideal.sin_coe, Ideal.div_coe hsq]
      norm_cast
    · simp only [coefBsafe, hs, select_zero, hth, hsafe, Ideal.cos_coe, one, ofBits_one, Ideal.div_coe ht.ne']
      norm_cast
    · simp only [coefBraw, hs, select_zero, hth, Ideal.cos_coe, one, ofBits_one, Ideal.div_coe ht.ne']
      norm_cast

/-! ## Both spellings of θ² are the real wx² + wy² + wz² -/

theorem th2K_coe (wx wy wz : ℝ) :
    th2K (wx : EReal) (wy : EReal) (wz : EReal) = ((wx * wx + wy * wy + wz * wz : ℝ) : EReal) := by
  simp only [th2K]; norm_cast

theorem th2R_coe (wx wy wz : ℝ) :
    th2R (wx : EReal) (wy : EReal) (wz : EReal) = ((wx * wx + wy * wy + wz * wz : ℝ) : EReal) := by
  simp only [th2R, zero, ofBits_zero, Fin.sum_univ_three, Matrix.cons_val_zero, Matrix.cons_val_one,
    Matrix.cons_val_two, Matrix.head_cons, Matrix.tail_cons]
  norm_cast
  ring

/-! ## The sixteen entries -/

/-- Entry (r, c) of the expanded spelling is entry (r, c) of the matrix spelling, at finite inputs: with
    real coefficients every entry is an identity of real polynomials. -/
theorem entry_eq (wx wy wz tx ty tz : ℝ) (r c : Fin 4) :
    kerEntry (wx : EReal) (wy : EReal) (wz : EReal) (tx : EReal) (ty : EReal) (tz : EReal) ⟨4 * r.val + c.val, by omega⟩
      = refEntry (wx : EReal) (wy : EReal) (wz : EReal) (tx : EReal) (ty : EReal) (tz : EReal) r c := by
  obtain ⟨a, b, ha, hbs, hbr⟩ := coef_real (wx * wx + wy * wy + wz * wz)
  simp only [kerEntry, refEntry, refRot, th2K_coe, th2R_coe, ha, hbs, hbr]
  fin_cases r <;> fin_cases c
  all_goals (simp [eye, skew, lastRow, one, zero, ofBits_one, ofBits_zero, Fin.sum_univ_three])
  all_goals (norm_cast; ring)

end Cert.So3

end
-- ==== Proof.Bridge.lean ====
/-
  The two programs compute the same array on a finite argument.

  Both results are [4000000, 4, 4] arrays whose entry (b, r, c) depends on row b of the argument only: one is entry
  4·r + c of the row's matrix with the rotation expanded entry by entry, the other entry (r, c) of the row's matrix
  with the rotation formed as (I + A·K) + B·(K·K). When the row's six numbers are real the two are the same number
  (the polynomial identities of Rodrigues' formula, with real coefficients), so the arrays are equal index by index.
-/
import proofs.«127277_j31421980737562_2_alg».proof.Proof.KerArray
import proofs.«127277_j31421980737562_2_alg».proof.Proof.RefRead
import proofs.«127277_j31421980737562_2_alg».proof.Proof.RodriguesLaw

noncomputable section

namespace Cert.So3

open Idealize.ShloMosaic Idealize.ShloMosaic.ValueIdx

/-- On an argument array of real entries the expanded result and the matrix-form result are one array. -/
theorem out_eq (x : FVec Ideal Cert.KernelIdeal.S4000000x6 .f32) (hfin : ∀ i, ∃ v : ℝ, x i = (v : EReal)) :
    Cert.KernelIdeal.KerValue.kerOut x = Cert.ReferenceIdeal.RefValue.refOut x := by
  funext j
  obtain ⟨b, r, c, rfl⟩ : ∃ (b : Fin 4000000) (r c : Fin 4), j = ix3 b r c := ⟨j 0, j 1, j 2, eq_ix3 j⟩
  rw [Cert.KernelIdeal.KerValue.kerOut_apply, Cert.ReferenceIdeal.RefValue.refOut_apply]
  obtain ⟨v0, h0⟩ := hfin (ix2 b (0 : Fin 6))
  obtain ⟨v1, h1⟩ := hfin (ix2 b (1 : Fin 6))
  obtain ⟨v2, h2⟩ := hfin (ix2 b (2 : Fin 6))
  obtain ⟨v3, h3⟩ := hfin (ix2 b (3 : Fin 6))
  obtain ⟨v4, h4⟩ := hfin (ix2 b (4 : Fin 6))
  obtain ⟨v5, h5⟩ := hfin (ix2 b (5 : Fin 6))
  rw [h0, h1, h2, h3, h4, h5]
  exact entry_eq v0 v1 v2 v3 v4 v5 r c

end Cert.So3

end
-- ==== Proof.FiniteInputs.lean ====
/-
  What the precondition says of the input: every one of its numbers is finite.

  The precondition is the conjunction, over all indices of the 4000000 × 6 input, of |x i| < +∞, and it is
  assumed to come out true. A conjunction that is true is true at each index, so |x i| < +∞ for every i,
  where |y| is max y (−y) and +∞ is what the word 0x7F800000 denotes. On the extended reals
  max y (−y) = +∞ at both infinities, so y is neither: it is a real.
-/
import proofs.«127277_j31421980737562_2_alg».proof.Pre_finite_inputs
import proofs.«127277_j31421980737562_2_alg».proof.Proof.Gen.Pre_finite_inputs
import Idealize.ShloMosaic.Lib.ReduceAll
import Idealize.ShloMosaic.PureOps.Ideal
import Idealize.ShloMosaic.Lib.ValueIdx

noncomputable section

namespace Cert.So3

open Idealize.ShloMosaic

/-- the result of the conjunction has a single index -/
instance : Subsingleton Cert.Pre_finite_inputs.S_.Idx := ⟨fun a b => funext fun d => d.elim0⟩

/-- the word 0x7F800000 denotes +∞ -/
theorem ofBits_inf : Ideal.ofBits .f32 0x7F800000#32 = ⊤ := by
  simp [Ideal.ofBits, Ideal.ieee]

/-- An extended real whose absolute value max y (−y) is below +∞ is a real: at −∞ and at +∞ the maximum is +∞. -/
theorem real_of_abs_lt_top (y : EReal) (h : Ideal.cmp .olt (max y (-y)) ⊤ = 1#1) : ∃ v : ℝ, y = (v : EReal) := by
  induction y using EReal.rec with
  | bot => simp [Ideal.cmp] at h
  | coe v => exact ⟨v, rfl⟩
  | top => simp [Ideal.cmp] at h

/-- Under the precondition every input number is a real: the conjunction over all indices is true, hence
    true at i, and there it reads |x i| < +∞. -/
theorem finite_of_pre [Cert.Pre_finite_inputs.Facts] (x : FVec Ideal Cert.Pre_finite_inputs.S4000000x6 .f32)
    (h : Cert.Pre_finite_inputs.fn (F := Ideal) x = fun _ => 1#1) (i : Cert.Pre_finite_inputs.S4000000x6.Idx) :
    ∃ v : ℝ, x i = (v : EReal) := by
  have h0 := congrFun h ValueIdx.ix0
  dsimp only [Cert.Pre_finite_inputs.fn] at h0
  have h1 := Host.reduce_andi_all _ _ _ _ _ h0 i
  dsimp only [cmpf, Host.absf, broadcastInDim, constant] at h1
  exact real_of_abs_lt_top (x i) (ofBits_inf ▸ h1)

end Cert.So3

end
-- ==== Proof.lean ====
/-
  The certificate of the batched Rodrigues kernel against its matrix-form reference.

  Each of the 4,000,000 input rows is a rotation vector w and a translation t; the result row is the homogeneous
  matrix [[R, t], [0 0 0 1]], R = I + A·K + B·K² with K the skew matrix of w, A = sin θ / θ, B = (1 − cos θ) / θ²
  (their Taylor polynomials below the threshold θ² < ε). The kernel expands R entry by entry, lane-dense over blocks
  of 16000 rows; the reference builds K and multiplies it by itself.

  The three frames: the two kernel programs' are the generated frame proofs; the reference's is its run with the
  result dropped. The idealization rewrote nothing, so "preserves" is trivial. For the value claim the kernel's run
  ends with the result buffer at one whole-array function of the argument (the per-row expanded matrix, block by
  block through the grid and then recast to [B, 4, 4]), the reference's run at the composed function of its stages;
  read at an index both are functions of the row's six numbers, equal when those are real, which the precondition
  gives.
-/
import proofs.«127277_j31421980737562_2_alg».proof.Defs
import proofs.«127277_j31421980737562_2_alg».proof.Proof.Gen.Kernel
import proofs.«127277_j31421980737562_2_alg».proof.Proof.Gen.Kernel.Frame
import proofs.«127277_j31421980737562_2_alg».proof.Proof.Gen.KernelIdeal
import proofs.«127277_j31421980737562_2_alg».proof.Proof.Gen.KernelIdeal.Frame
import proofs.«127277_j31421980737562_2_alg».proof.Proof.Gen.ReferenceIdeal
import proofs.«127277_j31421980737562_2_alg».proof.Proof.Gen.Pre_finite_inputs
import proofs.«127277_j31421980737562_2_alg».proof.Proof.KerArray
import proofs.«127277_j31421980737562_2_alg».proof.Proof.RefRun
import proofs.«127277_j31421980737562_2_alg».proof.Proof.Bridge
import proofs.«127277_j31421980737562_2_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its argument unchanged. -/
theorem frame_referenceIdeal : Cert.frame_ReferenceIdeal := fun m ρ _ =>
  (θ_run Cert.ReferenceIdeal.defs _ _).mono (fun _ h c => (h c).2) (Cert.ReferenceIdeal.RefValue.run m ρ)

/-- Both runs end with the result at the expanded array function of the launch argument: the kernel's by its run, the
    reference's because its own array function agrees with it on a finite argument. -/
theorem algebraic : Cert.algebraic_KernelIdeal_ReferenceIdeal := by
  intro m ρ m' ρ' hpre hagree
  refine ⟨fun c => Cert.KernelIdeal.KerValue.kerOut (m ((c.tc : Thread Cert.KernelIdeal.nD Cert.KernelIdeal.τ).loc Cert.KernelIdeal.main_arg0)),
    Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [hagree c]
  exact (Cert.So3.out_eq _ (fun i => Cert.So3.finite_of_pre _ (hpre c) i)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
